-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S256x64 .f32 .bf16
  ∧ IdealRules.truncf_extf.Statement Cert.KernelIdeal.S2048x64 .f32 .bf16
  ∧ IdealRules.truncf_extf.Statement Cert.KernelIdeal.S256x2048 .f32 .bf16
  ∧ IdealRules.truncf_extf.Statement Cert.KernelIdeal.S2048x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x1x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S1x1x256x64 : Shape := ⟨4, ![1, 1, 256, 64]⟩
abbrev S1x16x2048x64 : Shape := ⟨4, ![1, 16, 2048, 64]⟩
abbrev S1x1x256x2048 : Shape := ⟨4, ![1, 1, 256, 2048]⟩
abbrev S256x64 : Shape := ⟨2, ![256, 64]⟩
abbrev S1x1x2048x64 : Shape := ⟨4, ![1, 1, 2048, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i1⟩
  | .hbm, ⟨4, _⟩ => ⟨S2x1x2048x2048, .i32⟩
  | .hbm, ⟨5, _⟩ => ⟨S2x16x2048x64, .f32⟩
  | .hbm, ⟨6, _⟩ => ⟨S2x16x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x16x2048x64, .f32⟩
  | .local _ .vmem, ⟨3, _⟩ => ⟨S1x16x2048x64, .f32⟩
  | .local _ .vmem, ⟨4, _⟩ => ⟨S1x1x256x2048, .i32⟩
  | .local _ .vmem, ⟨5, _⟩ => ⟨S1x1x256x2048, .i32⟩
  | .local _ .vmem, ⟨6, _⟩ => ⟨S1x1x256x64, .f32⟩
  | .local _ .vmem, ⟨7, _⟩ => ⟨S1x1x256x64, .f32⟩
  | .local _ .vmem, ⟨8, _⟩ => ⟨S1x1x256x2048, .f32⟩
  | .local _ .vmem, ⟨9, _⟩ => ⟨S1x1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 16], ![false, false, false]⟩

def k0_off1 (i : grid0.Coords) : Fin 4 → Nat :=
  let c0_3 : Index := 0#32
  let arg2 : BitVec 32 := BitVec.ofNat 32 (i 2).val
  let v4 : Index := Scalar.indexCast arg2
  let c0_4 : Index := 0#32
  let c0_5 : Index := 0#32
  ![0, v4.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x16x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  h_S1x1x2048x64 : 0 < S1x1x2048x64.numel
  shapeCasts_S1x1x2048x64_S2048x64 : S1x1x2048x64.ShapeCasts S2048x64
  bitsLt_bf16_f32 : FTy.bits .bf16 < FTy.bits .f32
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x1x256x2048 : S256x2048.ShapeCasts S1x1x256x2048
  shapeCasts_S256x64_S1x1x256x64 : S256x64.ShapeCasts S1x1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_off1_inb : ∀ i : grid0.Coords, ∀ a, (k0_off1 i) a + S1x1x2048x64.size a ≤ S1x16x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S2x16x2048x64.size a
  hwx0_0 : ∀ i : grid0.Coords, EltTy.bits .f32 = 32 ∨ (Rect.block (s := S2x16x2048x64) S1x1x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16x2048x64.size a ≤ S2x16x2048x64.size a
  hwx0_1 : ∀ i : grid0.Coords, EltTy.bits .f32 = 32 ∨ (Rect.block (s := S2x16x2048x64) S1x16x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16x2048x64.size a ≤ S2x16x2048x64.size a
  hwx0_2 : ∀ i : grid0.Coords, EltTy.bits .f32 = 32 ∨ (Rect.block (s := S2x16x2048x64) S1x16x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S2x1x2048x2048.size a
  hwx0_3 : ∀ i : grid0.Coords, EltTy.bits .i32 = 32 ∨ (Rect.block (s := S2x1x2048x2048) S1x1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S2x16x2048x64.size a
  hwx0_4 : ∀ i : grid0.Coords, EltTy.bits .f32 = 32 ∨ (Rect.block (s := S2x16x2048x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x2048.size a ≤ S2x16x2048x2048.size a
  hwx0_5 : ∀ i : grid0.Coords, EltTy.bits .f32 = 32 ∨ (Rect.block (s := S2x16x2048x2048) S1x1x256x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i1⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S_, .f32⟩
  | .hbm, ⟨10, _⟩ => ⟨S2x16x2048x2048, .i1⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048, .f32⟩
  | .hbm, ⟨15, _⟩ => ⟨S_, .f32⟩
  | .hbm, ⟨16, _⟩ => ⟨S2x16x2048, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Pieces.lean ====
/-
  What one grid point's body leaves in its two output blocks, as pure functions of the blocks it was handed.

  The body stores each output block once, whole. The block of attention weights it stores is the quotient of the
  exponentiated shifted scores by their row sums; the context block is the three-pass product of those weights with the
  head's slab of V. Both are computed from the query block, the mask block, and ONE head's slab — the slab at the grid
  point's head coordinate — of the K block and of the V block, which hold all sixteen heads.
-/
import proofs.«149236_j57226144252711_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz4 : (![0, 0, 0, 0] : Fin 4 → Nat) = fun _ => 0 := funext fun a => by fin_cases a <;> rfl

/-- The slab of a sixteen-head block that belongs to the grid point's head: what the body's load at the head's offset reads. -/
def headOf (i : grid0.Coords) (x : Vec F S1x16x2048x64 .f32) : Vec F S1x1x2048x64 .f32 :=
  View.ld x (Rect.unit (s := S1x16x2048x64) (k0_off1 i) S1x1x2048x64.size (k0_off1_inb i))

/-- The attention block the body leaves: its one covering store's payload, over the blocks the body loaded. -/
theorem weights_left (c : Dev nD) (i : grid0.Coords) (arg3 : Memref sig .tc .vmem S1x1x256x64 .f32) (harg3 : arg3.IsWhole) (arg4 : Memref sig .tc .vmem S1x16x2048x64 .f32) (harg4 : arg4.IsWhole) (arg5 : Memref sig .tc .vmem S1x16x2048x64 .f32) (harg5 : arg5.IsWhole) (arg6 : Memref sig .tc .vmem S1x1x256x2048 .i32) (harg6 : arg6.IsWhole) (arg7 : Memref sig .tc .vmem S1x1x256x64 .f32) (harg7 : arg7.IsWhole) (arg8 : Memref sig .tc .vmem S1x1x256x2048 .f32) (harg8 : arg8.IsWhole)
    (x0 : Vec F S1x1x256x64 .f32) (x1 : Vec F S1x16x2048x64 .f32) (x2 : Vec F S1x16x2048x64 .f32) (x3 : Vec F S1x1x256x2048 .i32) :
    out0_A_5 c i arg3 harg3 arg4 harg4 arg5 harg5 arg6 harg6 arg7 harg7 arg8 harg8 x0 x1 x2 x3
      = k0_pay2 (k0_pay5 x0 (headOf i x1) x3) (k0_pay6 x0 (headOf i x1) x3) := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  sl_unfold_run_names
  rw [View.canon_unit_zero hz4]
  simp only [View.readAt_eq_ld, harg3.read_unread, harg4.read_unread, harg6.read_unread,
    View.ld_unit_zero (S := S1x1x256x64) hz4, View.ld_unit_zero (S := S1x1x256x2048) hz4]
  rfl

/-- The context block the body leaves: its one covering store's payload, over the blocks the body loaded. -/
theorem context_left (c : Dev nD) (i : grid0.Coords) (arg3 : Memref sig .tc .vmem S1x1x256x64 .f32) (harg3 : arg3.IsWhole) (arg4 : Memref sig .tc .vmem S1x16x2048x64 .f32) (harg4 : arg4.IsWhole) (arg5 : Memref sig .tc .vmem S1x16x2048x64 .f32) (harg5 : arg5.IsWhole) (arg6 : Memref sig .tc .vmem S1x1x256x2048 .i32) (harg6 : arg6.IsWhole) (arg7 : Memref sig .tc .vmem S1x1x256x64 .f32) (harg7 : arg7.IsWhole) (arg8 : Memref sig .tc .vmem S1x1x256x2048 .f32) (harg8 : arg8.IsWhole)
    (x0 : Vec F S1x1x256x64 .f32) (x1 : Vec F S1x16x2048x64 .f32) (x2 : Vec F S1x16x2048x64 .f32) (x3 : Vec F S1x1x256x2048 .i32) :
    out0_A_4 c i arg3 harg3 arg4 harg4 arg5 harg5 arg6 harg6 arg7 harg7 arg8 harg8 x0 x1 x2 x3
      = k0_pay3 (k0_pay4 (headOf i x2)) (k0_pay5 x0 (headOf i x1) x3) (k0_pay6 x0 (headOf i x1) x3) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_run_names
  rw [View.canon_unit_zero hz4]
  simp only [View.readAt_eq_ld, harg3.read_unread, harg4.read_unread, harg5.read_unread, harg6.read_unread,
    View.ld_unit_zero (S := S1x1x256x64) hz4, View.ld_unit_zero (S := S1x1x256x2048) hz4]
  rfl

end Cert.KernelIdeal.Pieces

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibBitFolds.lean ====
/-
  Single bits, their conjunctions and disjunctions over a finite family, and their readings as numbers.

  Two bits are equal when each is 1 exactly when the other is; a fold by AND from 1 over a finite family of bits is 1
  exactly when every member is, a fold by OR from 0 exactly when some member is; the maximum over a finite family of
  "1.0 where the bit is set, else 0.0", started from the -inf word and compared with 0.0 (how a row-wise "any" of a
  mask is computed with float lanes), is 1 exactly when some bit of the family is set; and a bit read as a number is
  the same whether it is read unsigned as it stands or widened to 32 bits and read signed.  All over the extended
  reals of the ideal instance; nothing here mentions a program.
-/
import Idealize.ShloMosaic.PureOps.Ideal.Laws
import Idealize.ShloMosaic.PureOps.Reduce
import Idealize.ShloMosaic.Lib.ValueIdx
import Idealize.ShloMosaic.Lib.Affine
import Idealize.ShloMosaic.Lib.IdealHost

noncomputable section

namespace Cert.BitFolds

open Idealize.ShloMosaic Idealize.ShloMosaic.ValueIdx

/-- Two bits are equal when each is 1 exactly when the other is. -/
theorem bit_ext {a b : BitVec 1} (h : a = 1#1 ↔ b = 1#1) : a = b := by
  rcases BitVec.eq_zero_or_eq_one a with ha | ha <;> rcases BitVec.eq_zero_or_eq_one b with hb | hb <;> subst ha <;> subst hb
  · rfl
  · exact absurd (h.mpr rfl) (by decide)
  · exact absurd (h.mp rfl) (by decide)
  · rfl

/-- A truth value as a bit is 1 exactly when it is true. -/
theorem ofBool_eq_one {b : Bool} : BitVec.ofBool b = 1#1 ↔ b = true := by cases b <;> decide

/-- A bit read as a number: 0 or 1. -/
def bitR (b : BitVec 1) : EReal := ((b.toNat : ℝ) : EReal)

/-- Widening a bit to 32 bits and reading the word signed gives the same number. -/
theorem toInt_setWidth_bit (b : BitVec 1) : ((((b.setWidth 32).toInt : ℤ) : ℝ) : EReal) = bitR b := by
  rcases BitVec.eq_zero_or_eq_one b with h | h <;> subst h <;> simp [bitR]

theorem bitR_zero : bitR 0#1 = 0 := by simp [bitR]
theorem bitR_one : bitR 1#1 = 1 := by simp [bitR]

/-- A conjunction over a finite family of bits is 1 exactly when every member is. -/
theorem fold_andi_eq_one {ι : Type} [DecidableEq ι] (f : ι → BitVec 1) (s : Finset ι) :
    s.fold IntOp.andi 1#1 f = 1#1 ↔ ∀ k ∈ s, f k = 1#1 := by
  induction s using Finset.induction_on with
  | empty => simp
  | insert a s ha ih =>
    rw [Finset.fold_insert ha, IntOp.andi_eq_one, ih]
    constructor
    · rintro ⟨h1, h2⟩ k hk
      rcases Finset.mem_insert.mp hk with rfl | hk
      · exact h1
      · exact h2 k hk
    · intro h
      exact ⟨h a (Finset.mem_insert_self a s), fun k hk => h k (Finset.mem_insert_of_mem hk)⟩

/-- A disjunction over a finite family of bits is 1 exactly when some member is. -/
theorem fold_ori_eq_one {ι : Type} [DecidableEq ι] (f : ι → BitVec 1) (s : Finset ι) :
    s.fold IntOp.ori 0#1 f = 1#1 ↔ ∃ k ∈ s, f k = 1#1 := by
  induction s using Finset.induction_on with
  | empty => simp
  | insert a s ha ih =>
    rw [Finset.fold_insert ha, IntOp.ori_eq_one, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.mp hk with rfl | hk
      · exact Or.inl h
      · exact Or.inr ⟨k, hk, h⟩

/-- The -inf word is the bottom of the extended reals. -/
theorem ofBits_neg_inf_f32 : Ideal.ofBits .f32 0xFF800000#32 = ⊥ := by simp [Ideal.ofBits, Ideal.ieee]

/-- The row maximum, over a finite family, of "1.0 where the bit is set, else 0.0", started from -inf, is above 0.0
    exactly when some bit of the family is set — the float spelling of a disjunction. -/
theorem max_select_pos {ι : Type} (f : ι → BitVec 1) (s : Finset ι) :
    Ideal.cmp .ogt (s.fold max (Ideal.ofBits .f32 0xFF800000#32)
        (fun k => Scalar.select (f k) (Ideal.ofBits .f32 0x3F800000#32) (Ideal.ofBits .f32 0x00000000#32)))
      (Ideal.ofBits .f32 0x00000000#32) = 1#1 ↔ ∃ k ∈ s, f k = 1#1 := by
  rw [ofBits_neg_inf_f32, Ideal.ofBits_zero_f32, Ideal.ofBits_one_f32]
  unfold Ideal.cmp
  simp only [ofBool_eq_one, decide_eq_true_eq]
  rw [Finset.lt_fold_max]
  constructor
  · rintro (h | ⟨k, hk, h⟩)
    · exact absurd h (by simp)
    · refine ⟨k, hk, ?_⟩
      rcases BitVec.eq_zero_or_eq_one (f k) with h0 | h1
      · rw [h0, select_zero] at h; exact absurd h (lt_irrefl _)
      · exact h1
  · rintro ⟨k, hk, h⟩
    refine Or.inr ⟨k, hk, ?_⟩
    rw [h, select_one]
    exact zero_lt_one

end Cert.BitFolds

end
-- ==== Proof.LibSoftmaxRows.lean ====
/-
  Softmax over the rows of a score block, read at an index, on the extended reals.

  For a block of scores s of shape [a, b]:
  * the row maximum — a max-reduction over the columns from the -inf word, kept as a column [a, 1] and broadcast back to
    [a, b] — read at (q, k) is the largest score of row q, folded from the bottom element (`rowTop`);
  * the row sum — an add-reduction from the zero word, kept and broadcast the same way — read at (q, k) is Σ_k' s[q, k'];
  * so exp(s − rowmax) / rowsum(exp(s − rowmax)) at (q, k) is the softmax weight of column k among row q's scores
    (`rowWeight`): the form jnp's `p = exp(s - max); p / sum(p)` takes in a kernel body.
  Beside them, the one law of the extended reals such kernels need when a constant scale is moved across an inner
  product: a nonnegative finite factor distributes over any finite sum, whatever the summands.
-/
import proofs.«149236_j57226144252711_2_alg».proof.Proof.LibRowSum
import proofs.«149236_j57226144252711_2_alg».proof.Proof.LibKeepdimsLayout
import proofs.«149236_j57226144252711_2_alg».proof.Proof.LibBitFolds
import Idealize.ShloMosaic.PureOps.Ideal.Laws
import Idealize.ShloMosaic.Lib.ValueIdx
import Idealize.ShloMosaic.Lib.Pipeline.Value
import Mathlib.Data.EReal.Operations
import Mathlib.Data.Finset.Fold

noncomputable section

open scoped BigOperators

namespace Cert.SoftmaxLib

open Idealize.ShloMosaic Idealize.ShloMosaic.ValueIdx

/-- The largest of finitely many extended reals, from the bottom element. -/
def rowTop {n : ℕ} (s : Fin n → EReal) : EReal := (Finset.univ : Finset (Fin n)).fold max (⊥ : EReal) s

/-- The softmax weight of entry k among s: exp(s_k − top) / Σ_k' exp(s_k' − top). -/
def rowWeight {n : ℕ} (s : Fin n → EReal) (k : Fin n) : EReal :=
  Ideal.div (Ideal.exp (s k - rowTop s)) (∑ k' : Fin n, Ideal.exp (s k' - rowTop s))

/-- A nonnegative finite factor distributes over a finite sum of extended reals; no summand need be finite. -/
theorem sum_mul_const {c : EReal} (h0 : 0 ≤ c) (htop : c ≠ ⊤) {n : ℕ} (t : Fin n → EReal) :
    ∑ e : Fin n, t e * c = (∑ e : Fin n, t e) * c := by
  classical
  refine Finset.induction_on (Finset.univ : Finset (Fin n)) ?_ ?_
  · simp
  · intro a s ha ih
    rw [Finset.sum_insert ha, Finset.sum_insert ha, ih, EReal.right_distrib_of_nonneg_of_ne_top h0 htop]

/-- Scaling the left factors of an inner product by such a constant scales the inner product. -/
theorem scaled_inner {c : EReal} (h0 : 0 ≤ c) (htop : c ≠ ⊤) {n : ℕ} (x y : Fin n → EReal) :
    ∑ e : Fin n, (x e * c) * y e = (∑ e : Fin n, x e * y e) * c := by
  rw [← sum_mul_const h0 htop]
  refine Finset.sum_congr rfl fun e _ => ?_
  rw [mul_assoc, mul_comm c, ← mul_assoc]

variable {a b : ℕ}

/-- The row maximum, kept as a column and broadcast over the row, read at (q, k). -/
theorem rowMax_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .maximumf [1] ⟨1, ![a]⟩ s 0xFF800000#32 h hφ hacc) hc) hb (ix2 q k)
      = rowTop (fun k' : Fin b => s (ix2 q k')) := by
  rw [Cert.LayoutKeepdims.broadcastTo_a1_ab_apply, Cert.LayoutKeepdims.shapeCast_a_a1_apply,
    Ideal.multiReduction_maximumf_single]
  unfold rowTop
  rw [Ideal.ofBits_def, Cert.BitFolds.ofBits_neg_inf_f32]
  refine congrArg (fun f => (Finset.univ : Finset (Fin b)).fold max (⊥ : EReal) f) ?_
  funext k'
  exact congrArg s (Idealize.ShloMosaic.RowSum.lift_row h q k')

/-- The row sum, kept as a column and broadcast over the row, read at (q, k). -/
theorem rowSum_at (s : FVec Ideal ⟨2, ![a, b]⟩ .f32)
    (h : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .add [1] ⟨1, ![a]⟩ s 0x00000000#32 h hφ hacc) hc) hb (ix2 q k)
      = ∑ k' : Fin b, s (ix2 q k') := by
  rw [Cert.LayoutKeepdims.broadcastTo_a1_ab_apply, Cert.LayoutKeepdims.shapeCast_a_a1_apply,
    Idealize.ShloMosaic.RowSum.rowSum_apply]

/-- Scores minus their row maximum, exponentiated, at (q, k). -/
theorem shifted_exp_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (q : Fin a) (k : Fin b) :
    exp (subf s (broadcastTo ⟨2, ![a, b]⟩ (shapeCast ⟨2, ![a, 1]⟩ (multiReduction .maximumf [1] ⟨1, ![a]⟩ s 0xFF800000#32 h hφ hacc) hc) hb)) (ix2 q k)
      = Ideal.exp (s (ix2 q k) - rowTop (fun k' : Fin b => s (ix2 q k'))) := by
  show Ideal.exp (s (ix2 q k) - _) = _
  rw [rowMax_at]

/-- THE WEIGHTS: exp(s − rowmax) / rowsum(exp(s − rowmax)) at (q, k) is the softmax weight of k in row q. -/
theorem weights_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hφ' : FKind.Formats .f32) (hacc' : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    divf (exp (subf s (broadcastTo ⟨2, ![a, b]⟩ (shapeCast ⟨2, ![a, 1]⟩ (multiReduction .maximumf [1] ⟨1, ![a]⟩ s 0xFF800000#32 h hφ hacc) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s 0xFF800000#32 h hφ hacc) hc) hb)))
          0x00000000#32 h hφ' hacc') hc) hb) (ix2 q k)
      = rowWeight (fun k' : Fin b => s (ix2 q k')) k := by
  rw [divf_apply, rowSum_at, shifted_exp_at]
  unfold rowWeight
  refine congrArg (Ideal.div _) ?_
  exact Finset.sum_congr rfl fun k' _ => shifted_exp_at s h hφ hacc hc hb q k'

end Cert.SoftmaxLib

end
-- ==== Proof.LibRealPasses.lean ====
/-
  Real numbers among the extended reals: a matrix product taken in several passes, and softmax rows.

  A kernel that emulates a full-precision product on a reduced-precision matrix unit splits each operand x into a high
  part and a low part x − high and adds the passes high·high + high·low + low·high. Over the extended reals a format
  change is the identity, so the high part is x itself and the low part is x − x, which is 0 when x is a real number and
  is not when x is infinite. So for real entries the three passes are the plain product. Beside that: real numbers are
  closed under products and finite sums; the largest of finitely many (at least one) real numbers is real; and a
  softmax weight exp(s_k − top) / Σ exp(s_k' − top) of real scores is real — a quotient of positive reals.
  Nothing here mentions a program.
-/
import proofs.«149236_j57226144252711_2_alg».proof.Proof.LibSoftmaxRows
import Idealize.ShloMosaic.PureOps.Ideal

noncomputable section

open scoped BigOperators

namespace Cert.RealPasses

open Idealize.ShloMosaic Cert.SoftmaxLib

/-- An extended real that is a real number. -/
def IsReal (x : EReal) : Prop := ∃ r : ℝ, x = (r : EReal)

/-! ## Real numbers among the extended reals -/

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub_self {x : EReal} (hx : IsReal x) : x - x = 0 := by
  obtain ⟨a, rfl⟩ := hx
  rw [← EReal.coe_sub, _root_.sub_self, EReal.coe_zero]

/-- A finite sum of real numbers, taken on the extended reals, is the real sum. -/
theorem coe_sum {ι : Type*} (s : Finset ι) (f : ι → ℝ) : ∑ i ∈ s, (f i : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

/-- THE THREE PASSES: an inner product computed as a·b + a·(b − b) + (a − a)·b is a·b when every entry is real. -/
theorem three_passes {n : ℕ} (a b : Fin n → EReal) (ha : ∀ e, IsReal (a e)) (hb : ∀ e, IsReal (b e)) :
    (∑ e : Fin n, a e * b e) + (∑ e : Fin n, a e * (b e - b e)) + (∑ e : Fin n, (a e - a e) * b e)
      = ∑ e : Fin n, a e * b e := by
  have h1 : ∑ e : Fin n, a e * (b e - b e) = 0 :=
    Finset.sum_eq_zero fun e _ => by rw [(hb e).sub_self, mul_zero]
  have h2 : ∑ e : Fin n, (a e - a e) * b e = 0 :=
    Finset.sum_eq_zero fun e _ => by rw [(ha e).sub_self, zero_mul]
  rw [h1, h2, add_zero, add_zero]

/-! ## A softmax weight of real scores is real -/

theorem rowTop_real {n : ℕ} (hn : 0 < n) (s : Fin n → EReal) (hs : ∀ k, IsReal (s k)) : IsReal (rowTop s) := by
  have htop : rowTop s ≠ ⊤ := by
    refine ne_of_lt ?_
    unfold rowTop
    rw [Finset.fold_max_lt]
    exact ⟨bot_lt_top, fun k _ => by obtain ⟨r, hr⟩ := hs k; rw [hr]; exact EReal.coe_lt_top r⟩
  have hbot : rowTop s ≠ ⊥ := by
    refine ne_of_gt ?_
    unfold rowTop
    rw [Finset.lt_fold_max]
    refine Or.inr ⟨⟨0, hn⟩, Finset.mem_univ _, ?_⟩
    obtain ⟨r, hr⟩ := hs ⟨0, hn⟩; rw [hr]; exact EReal.bot_lt_coe r
  exact ⟨(rowTop s).toReal, (EReal.coe_toReal htop hbot).symm⟩

theorem rowWeight_real {n : ℕ} (hn : 0 < n) (s : Fin n → EReal) (hs : ∀ k, IsReal (s k)) (k : Fin n) :
    IsReal (rowWeight s k) := by
  obtain ⟨t, ht⟩ := rowTop_real hn s hs
  choose a ha using hs
  have he : ∀ k', Ideal.exp (s k' - rowTop s) = ((Real.exp (a k' - t) : ℝ) : EReal) := fun k' => by
    rw [ha k', ht, ← EReal.coe_sub, Ideal.exp_coe]
  unfold rowWeight
  rw [he k, Finset.sum_congr rfl (fun k' _ => he k'), coe_sum]
  have hpos : (0 : ℝ) < ∑ k' : Fin n, Real.exp (a k' - t) :=
    Finset.sum_pos (fun k' _ => Real.exp_pos _) ⟨⟨0, hn⟩, Finset.mem_univ _⟩
  rw [Ideal.div_coe (ne_of_gt hpos), ← EReal.coe_mul]
  exact ⟨_, rfl⟩

end Cert.RealPasses

end
-- ==== Proof.AttnSpec.lean ====
/-
  Scaled dot-product attention with an explicit fill mask, as one function of the argument arrays, entry by entry, on
  the extended reals.

  For a batch b, a head h and a query row q, the score of key k is the inner product over the 64 features of row q of
  Q and row k of K, divided by the square root of 64; where the mask (shared by all heads) is set the score is replaced by
  a fixed small word. The attention weight of key k is the softmax weight of that entry among the 2048 masked scores of the
  row, and the context entry (q, d) is the sum over the keys of weight times V's entry (k, d).

  Beside the definitions: the two words that meet across the two programs (one eighth as a factor, the square root of 64
  as a divisor), and the kernel's score — three passes over the query row scaled by one eighth — as the inner product
  over the root, for real entries. On the extended reals x − x is 0 only for a real x, which is where finiteness of the
  inputs is used.
-/
import proofs.«149236_j57226144252711_2_alg».proof.Proof.LibRealPasses
import Idealize.ShloMosaic.PureOps.Ideal
import Idealize.ShloMosaic.Lib.ValueIdx

noncomputable section

open scoped BigOperators

namespace Cert.Attn

open Idealize.ShloMosaic Idealize.ShloMosaic.ValueIdx Cert.SoftmaxLib Cert.RealPasses

/-- The shape of Q, K, V and of the context. -/
abbrev SQ : Shape := ⟨4, ![2, 16, 2048, 64]⟩
/-- The shape of the mask: one plane per batch, shared by the heads. -/
abbrev SM : Shape := ⟨4, ![2, 1, 2048, 2048]⟩
/-- The shape of the attention weights. -/
abbrev SA : Shape := ⟨4, ![2, 16, 2048, 2048]⟩

/-- The word written where the mask is set. -/
def fill : EReal := Ideal.ofBits .f32 0x3089705F#32
/-- The divisor of the scores: the square root of the word 64. -/
def root : EReal := Ideal.sqrt (Ideal.ofBits .f32 0x42800000#32)

/-- The inner product of row q of Q and row k of K, in batch b and head h. -/
def inner (Q K : SQ.Idx → EReal) (b : Fin 2) (h : Fin 16) (q k : Fin 2048) : EReal :=
  ∑ d : Fin 64, Q (ix4 b h q d) * K (ix4 b h k d)

/-- The masked scores of query row q. -/
def scoreRow (Q K : SQ.Idx → EReal) (M : SM.Idx → BitVec 1) (b : Fin 2) (h : Fin 16) (q : Fin 2048) : Fin 2048 → EReal :=
  fun k => Scalar.select (M (ix4 b (0 : Fin 1) q k)) fill (Ideal.div (inner Q K b h q k) root)

/-- THE ATTENTION WEIGHTS: entry (b, h, q, k) is the softmax weight of key k among row q's masked scores. -/
def attn (Q K : SQ.Idx → EReal) (M : SM.Idx → BitVec 1) : SA.Idx → EReal :=
  fun i => rowWeight (scoreRow Q K M (i 0) (i 1) (i 2)) (i 3)

/-- THE CONTEXT: entry (b, h, q, d) is the sum over the keys of weight times V's entry (k, d). -/
def ctx (Q K V : SQ.Idx → EReal) (M : SM.Idx → BitVec 1) : SQ.Idx → EReal :=
  fun i => ∑ k : Fin 2048, attn Q K M (ix4 (i 0) (i 1) (i 2) k) * V (ix4 (i 0) (i 1) k (i 3))

/-! ## The words -/

/-- The word 0x3E000000 is one eighth. -/
theorem ofBits_eighth : Ideal.ofBits .f32 0x3E000000#32 = ((1 / 8 : ℝ) : EReal) := by
  simp [Ideal.ofBits, Ideal.ieee, -EReal.coe_mul]
  norm_num

/-- The word 0x42800000 is 64. -/
theorem ofBits_64 : Ideal.ofBits .f32 0x42800000#32 = ((64 : ℝ) : EReal) := by
  simp [Ideal.ofBits, Ideal.ieee, -EReal.coe_mul]
  norm_num

/-- The divisor is 8. -/
theorem root_eq : root = ((8 : ℝ) : EReal) := by
  unfold root
  rw [ofBits_64, Ideal.sqrt_coe, if_neg (by norm_num)]
  have : Real.sqrt 64 = 8 := by
    rw [show (64 : ℝ) = 8 ^ 2 by norm_num]
    exact Real.sqrt_sq (by norm_num)
  rw [this]

/-- Dividing by the square root of 64 is multiplying by the word one eighth, at the infinities too. -/
theorem div_root (x : EReal) : Ideal.div x root = x * Ideal.ofBits .f32 0x3E000000#32 := by
  rw [root_eq, Ideal.div_coe (by norm_num : (8 : ℝ) ≠ 0), ofBits_eighth]

/-- The fill word is a real number. -/
theorem fill_real : IsReal fill := by
  unfold fill IsReal
  simp [Ideal.ofBits, Ideal.ieee, -EReal.coe_mul]

theorem eighth_real : IsReal (Ideal.ofBits .f32 0x3E000000#32) := ⟨_, ofBits_eighth⟩

/-- The kernel's score: the three passes over Q's row scaled by one eighth are the inner product over the root. -/
theorem scaled_three_passes {n : ℕ} (x y : Fin n → EReal) (hx : ∀ e, IsReal (x e)) (hy : ∀ e, IsReal (y e)) :
    (∑ e : Fin n, (x e * Ideal.ofBits .f32 0x3E000000#32) * y e)
        + (∑ e : Fin n, (x e * Ideal.ofBits .f32 0x3E000000#32) * (y e - y e))
        + (∑ e : Fin n, (x e * Ideal.ofBits .f32 0x3E000000#32 - x e * Ideal.ofBits .f32 0x3E000000#32) * y e)
      = Ideal.div (∑ e : Fin n, x e * y e) root := by
  rw [three_passes (fun e => x e * Ideal.ofBits .f32 0x3E000000#32) y (fun e => (hx e).mul eighth_real) hy, div_root]
  refine scaled_inner ?_ ?_ x y
  · rw [ofBits_eighth]; exact_mod_cast (by norm_num : (0 : ℝ) ≤ 1 / 8)
  · rw [ofBits_eighth]; exact EReal.coe_ne_top _

/-- A masked score row of real Q and K is real. -/
theorem scoreRow_real (Q K : SQ.Idx → EReal) (M : SM.Idx → BitVec 1) (hQ : ∀ i, IsReal (Q i)) (hK : ∀ i, IsReal (K i))
    (b : Fin 2) (h : Fin 16) (q k : Fin 2048) : IsReal (scoreRow Q K M b h q k) := by
  unfold scoreRow
  have hd : IsReal (Ideal.div (inner Q K b h q k) root) := by
    rw [div_root]
    exact (IsReal.sum _ _ fun d => (hQ _).mul (hK _)).mul eighth_real
  unfold Scalar.select
  split
  · exact fill_real
  · exact hd

/-- Every attention weight of real Q and K is real. -/
theorem attn_real (Q K : SQ.Idx → EReal) (M : SM.Idx → BitVec 1) (hQ : ∀ i, IsReal (Q i)) (hK : ∀ i, IsReal (K i))
    (i : SA.Idx) : IsReal (attn Q K M i) :=
  rowWeight_real (by norm_num) _ (fun k => scoreRow_real Q K M hQ hK _ _ _ k) _

/-- The mask bit, widened to a 32-bit word and compared with zero, is the bit. -/
theorem widened_ne_zero (b : BitVec 1) : IntOp.cmpi .ne (b.setWidth 32) 0#32 = b := by
  rcases BitVec.eq_zero_or_eq_one b with h | h <;> subst h <;> rfl

end Cert.Attn

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.BodyAt.lean ====
/-
  One grid point's body, entry by entry, on the extended reals.

  The body is handed a block of 256 query rows, one head's slab of 2048 key rows and of 2048 value rows, and the block of
  mask words of its query rows. Its scores are three matrix passes — q'·k, q'·(k − k), (q' − q')·k, with q' the query
  rows times one eighth — which for real entries is the inner product of the query row and the key row over the square
  root of 64; where the mask word is not zero the score is replaced by the fill word. Row by row the exponentials of the
  scores less their row maximum, over their row sum, are the softmax weights; and the context block is again three
  passes, weights·v, weights·(v − v), (weights − weights)·v, which for real entries is the weighted sum of the value rows.
-/
import proofs.«149236_j57226144252711_2_alg».proof.Proof.Gen.KernelIdeal.Skeleton
import proofs.«149236_j57226144252711_2_alg».proof.Proof.AttnSpec
import proofs.«149236_j57226144252711_2_alg».proof.Proof.LibDotLastAxes
import proofs.«149236_j57226144252711_2_alg».proof.Proof.LibDotInner
import Idealize.ShloMosaic.Lib.ValueIdx
import Idealize.ShloMosaic.Lib.Pipeline.Value

noncomputable section

open scoped BigOperators

namespace Cert.KernelIdeal.BodyAt

open Cert.KernelIdeal Cert.KernelIdeal.Gen Idealize.ShloMosaic Idealize.ShloMosaic.ValueIdx Cert.Attn Cert.SoftmaxLib Cert.RealPasses

/-! ## The two matrix products at an entry -/

theorem qk_l0 (j : S256x2048.Idx) (q : dot_S256x64_S2048x64_S256x2048_1_1_0_0_n_n.contr.Idx) : (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl
theorem qk_l1 (j : S256x2048.Idx) (q : dot_S256x64_S2048x64_S256x2048_1_1_0_0_n_n.contr.Idx) : (dot_S256x64_S2048x64_S256x2048_1_1_0_0_n_n.lhsIdx j q 1).val = (q ⟨0, by decide⟩).val :=
  dot_S256x64_S2048x64_S256x2048_1_1_0_0_n_n.lhsIdx_val_of_single rfl j q
theorem qk_r0 (j : S256x2048.Idx) (q : dot_S256x64_S2048x64_S256x2048_1_1_0_0_n_n.contr.Idx) : (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl
theorem qk_r1 (j : S256x2048.Idx) (q : dot_S256x64_S2048x64_S256x2048_1_1_0_0_n_n.contr.Idx) : (dot_S256x64_S2048x64_S256x2048_1_1_0_0_n_n.rhsIdx j q 1).val = (q ⟨0, by decide⟩).val :=
  dot_S256x64_S2048x64_S256x2048_1_1_0_0_n_n.rhsIdx_val_of_single rfl j q

/-- A pass of queries against keys: entry (r, k) is the inner product of query row r and key row k. -/
theorem qk_pass (a : FVec Ideal S256x64 .bf16) (b : FVec Ideal S2048x64 .bf16) (r : Fin 256) (k : Fin 2048) :
    matmul dot_S256x64_S2048x64_S256x2048_1_1_0_0_n_n none a b (constant (F := Ideal) S256x2048 .f32 0x00000000#32) (ix2 r k)
      = ∑ d : Fin 64, a (ix2 r d) * b (ix2 k d) :=
  DotLastAxes.matmul_zero_apply dot_S256x64_S2048x64_S256x2048_1_1_0_0_n_n rfl rfl qk_l0 qk_l1 qk_r0 qk_r1 none a b r k

theorem av_l0 (j : S256x64.Idx) (q : dot_S256x2048_S2048x64_S256x64_1_0_0_1_n_n.contr.Idx) : (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
theorem av_l1 (j : S256x64.Idx) (q : dot_S256x2048_S2048x64_S256x64_1_0_0_1_n_n.contr.Idx) : (dot_S256x2048_S2048x64_S256x64_1_0_0_1_n_n.lhsIdx j q 1).val = (q ⟨0, by decide⟩).val :=
  dot_S256x2048_S2048x64_S256x64_1_0_0_1_n_n.lhsIdx_val_of_single rfl j q
theorem av_r0 (j : S256x64.Idx) (q : dot_S256x2048_S2048x64_S256x64_1_0_0_1_n_n.contr.Idx) : (dot_S256x2048_S2048x64_S256x64_1_0_0_1_n_n.rhsIdx j q 0).val = (q ⟨0, by decide⟩).val :=
  dot_S256x2048_S2048x64_S256x64_1_0_0_1_n_n.rhsIdx_val_of_single rfl j q
theorem av_r1 (j : S256x64.Idx) (q : dot_S256x2048_S2048x64_S256x64_1_0_0_1_n_n.contr.Idx) : (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- A pass of weights against values: entry (r, d) is the sum over the keys of weight (r, k) times value (k, d). -/
theorem av_pass (a : FVec Ideal S256x2048 .bf16) (b : FVec Ideal S2048x64 .bf16) (r : Fin 256) (d : Fin 64) :
    matmul dot_S256x2048_S2048x64_S256x64_1_0_0_1_n_n none a b (constant (F := Ideal) S256x64 .f32 0x00000000#32) (ix2 r d)
      = ∑ k : Fin 2048, a (ix2 r k) * b (ix2 k d) :=
  DotInner.matmul_zero_apply dot_S256x2048_S2048x64_S256x64_1_0_0_1_n_n rfl rfl av_l0 av_l1 av_r0 av_r1 none a b r d

/-! ## The masked scores -/

section AnyInstance
variable {F : FTy → Type} [FloatOps F]

/-- The masked scores of a block: the body's statements up to the select, as one function of the three blocks loaded. -/
def maskedScores (v0 : Vec F S1x1x256x64 .f32) (v5 : Vec F S1x1x2048x64 .f32) (v23 : Vec F S1x1x256x2048 .i32) : FVec F S256x2048 .f32 :=
  have v1 : FVec F S256x64 .f32 := shapeCast S256x64 v0 shapeCasts_S1x1x256x64_S256x64
  have cst : F .f32 := Scalar.ofBits .f32 0x3E000000#32
  have v2 : FVec F S256x64 .f32 := broadcast S256x64 cst
  have v3 : FVec F S256x64 .f32 := mulf v1 v2
  have v6 : FVec F S2048x64 .f32 := shapeCast S2048x64 v5 shapeCasts_S1x1x2048x64_S2048x64
  have v10 : FVec F S256x64 .bf16 := truncf .bf16 v3 bitsLt_bf16_f32
  have v11 : FVec F S256x64 .f32 := v3
  have v12 : FVec F S256x64 .f32 := subf v3 v11
  have v13 : FVec F S256x64 .bf16 := truncf .bf16 v12 bitsLt_bf16_f32
  have v14 : FVec F S2048x64 .bf16 := truncf .bf16 v6 bitsLt_bf16_f32
  have v15 : FVec F S2048x64 .f32 := v6
  have v16 : FVec F S2048x64 .f32 := subf v6 v15
  have v17 : FVec F S2048x64 .bf16 := truncf .bf16 v16 bitsLt_bf16_f32
  have cst_9 : FVec F S256x2048 .f32 := constant S256x2048 .f32 0x00000000#32
  have v18 : FVec F S256x2048 .f32 := matmul dot_S256x64_S2048x64_S256x2048_1_1_0_0_n_n none v10 v14 cst_9
  have cst_10 : FVec F S256x2048 .f32 := constant S256x2048 .f32 0x00000000#32
  have v19 : FVec F S256x2048 .f32 := matmul dot_S256x64_S2048x64_S256x2048_1_1_0_0_n_n none v10 v17 cst_10
  have v20 : FVec F S256x2048 .f32 := addf v18 v19
  have cst_11 : FVec F S256x2048 .f32 := constant S256x2048 .f32 0x00000000#32
  have v21 : FVec F S256x2048 .f32 := matmul dot_S256x64_S2048x64_S256x2048_1_1_0_0_n_n none v13 v14 cst_11
  have v22 : FVec F S256x2048 .f32 := addf v20 v21
  have v24 : IVec S256x2048 32 := shapeCast S256x2048 v23 shapeCasts_S1x1x256x2048_S256x2048
  have cst_16 : IVec S256x2048 32 := constantI S256x2048 32 0#32
  have v25 : IVec S256x2048 1 := cmpi .ne v24 cst_16
  have cst_17 : F .f32 := Scalar.ofBits .f32 0x3089705F#32
  have v26 : FVec F S256x2048 .f32 := broadcast S256x2048 cst_17
  have v27 : FVec F S256x2048 .f32 := select v25 v26 v22
  v27

/-- The exponentiated scores the body keeps are the masked scores less their row maximum, exponentiated. -/
theorem shifted_exp_eq (v0 : Vec F S1x1x256x64 .f32) (v5 : Vec F S1x1x2048x64 .f32) (v23 : Vec F S1x1x256x2048 .i32) :
    k0_pay5 v0 v5 v23 = exp (subf (maskedScores v0 v5 v23) (broadcastTo S256x2048 (shapeCast S256x1
      (multiReduction .maximumf [1] S256 (maskedScores v0 v5 v23) 0xFF800000#32 reduces_S256x2048_S256 (.inl rfl) rfl)
      shapeCasts_S256_S256x1) broadcasts_S256x1_S256x2048)) := rfl

end AnyInstance

theorem cmpi_at {s : Shape} {w : Nat} (p : CmpIPredicate) (x y : IVec s w) (i : s.Idx) : cmpi p x y i = IntOp.cmpi p (x i) (y i) := rfl
theorem constantI_at {s : Shape} {w : Nat} (b : BitVec w) (i : s.Idx) : constantI s w b i = b := rfl

/-- A masked score is the fill word where the mask word is not zero, else the inner product of the query row and the key
    row over the square root of 64 — for real entries, where the two difference passes vanish. -/
theorem maskedScores_at (v0 : Vec Ideal S1x1x256x64 .f32) (v5 : Vec Ideal S1x1x2048x64 .f32) (v23 : Vec Ideal S1x1x256x2048 .i32)
    (h0 : ∀ i, IsReal (v0 i)) (h5 : ∀ i, IsReal (v5 i)) (r : Fin 256) (k : Fin 2048) :
    maskedScores (F := Ideal) v0 v5 v23 (ix2 r k)
      = Scalar.select (IntOp.cmpi .ne (v23 (ix4 (0 : Fin 1) (0 : Fin 1) r k)) 0#32) fill
          (Ideal.div (∑ d : Fin 64, v0 (ix4 (0 : Fin 1) (0 : Fin 1) r d) * v5 (ix4 (0 : Fin 1) (0 : Fin 1) k d)) root) := by
  have hq : ∀ d : Fin 64, shapeCast S256x64 v0 shapeCasts_S1x1x256x64_S256x64 (ix2 r d) = v0 (ix4 (0 : Fin 1) (0 : Fin 1) r d) :=
    fun d => Cert.LayoutKeepdims.shapeCast_11ab_ab_apply _ _ r d
  have hk : ∀ d : Fin 64, shapeCast S2048x64 v5 shapeCasts_S1x1x2048x64_S2048x64 (ix2 k d) = v5 (ix4 (0 : Fin 1) (0 : Fin 1) k d) :=
    fun d => Cert.LayoutKeepdims.shapeCast_11ab_ab_apply _ _ k d
  have hm : shapeCast S256x2048 v23 shapeCasts_S1x1x256x2048_S256x2048 (ix2 r k) = v23 (ix4 (0 : Fin 1) (0 : Fin 1) r k) :=
    Cert.LayoutKeepdims.shapeCast_11ab_ab_apply _ _ r k
  unfold maskedScores
  simp only [select_apply, cmpi_at, constantI_at, broadcast_apply, addf_apply, qk_pass, truncf_apply, subf_apply, mulf_apply,
    hq, hk, hm]
  refine congrArg (Scalar.select _ _) ?_
  exact scaled_three_passes (fun d => v0 (ix4 (0 : Fin 1) (0 : Fin 1) r d)) (fun d => v5 (ix4 (0 : Fin 1) (0 : Fin 1) k d))
    (fun d => h0 _) (fun d => h5 _)

/-- A masked score of real entries is real. -/
theorem maskedScores_real (v0 : Vec Ideal S1x1x256x64 .f32) (v5 : Vec Ideal S1x1x2048x64 .f32) (v23 : Vec Ideal S1x1x256x2048 .i32)
    (h0 : ∀ i, IsReal (v0 i)) (h5 : ∀ i, IsReal (v5 i)) (r : Fin 256) (k : Fin 2048) :
    IsReal (maskedScores (F := Ideal) v0 v5 v23 (ix2 r k)) := by
  rw [maskedScores_at v0 v5 v23 h0 h5 r k]
  have hd : IsReal (Ideal.div (∑ d : Fin 64, v0 (ix4 (0 : Fin 1) (0 : Fin 1) r d) * v5 (ix4 (0 : Fin 1) (0 : Fin 1) k d)) root) := by
    rw [div_root]
    exact (IsReal.sum _ _ fun d => (h0 _).mul (h5 _)).mul eighth_real
  unfold Scalar.select
  split
  · exact fill_real
  · exact hd

/-! ## The weights and the context -/

/-- The quotient the body stores as attention weights, at (r, k): the softmax weight of k among row r's masked scores. -/
theorem quotient_at (v0 : Vec Ideal S1x1x256x64 .f32) (v5 : Vec Ideal S1x1x2048x64 .f32) (v23 : Vec Ideal S1x1x256x2048 .i32)
    (r : Fin 256) (k : Fin 2048) :
    k0_pay1 (F := Ideal) (k0_pay5 v0 v5 v23) (k0_pay6 v0 v5 v23) (ix2 r k)
      = rowWeight (fun k' : Fin 2048 => maskedScores (F := Ideal) v0 v5 v23 (ix2 r k')) k :=
  Cert.SoftmaxLib.weights_at (maskedScores (F := Ideal) v0 v5 v23) reduces_S256x2048_S256 (.inl rfl) rfl (.inl rfl) rfl
    shapeCasts_S256_S256x1 broadcasts_S256x1_S256x2048 r k

/-- THE ATTENTION BLOCK at (0, 0, r, k). -/
theorem weights_at (v0 : Vec Ideal S1x1x256x64 .f32) (v5 : Vec Ideal S1x1x2048x64 .f32) (v23 : Vec Ideal S1x1x256x2048 .i32)
    (r : Fin 256) (k : Fin 2048) :
    k0_pay2 (F := Ideal) (k0_pay5 v0 v5 v23) (k0_pay6 v0 v5 v23) (ix4 (0 : Fin 1) (0 : Fin 1) r k)
      = rowWeight (fun k' : Fin 2048 => maskedScores (F := Ideal) v0 v5 v23 (ix2 r k')) k := by
  unfold k0_pay2
  exact (Cert.LayoutKeepdims.shapeCast_ab_11ab_apply _ _ (0 : Fin 1) (0 : Fin 1) r k).trans (quotient_at v0 v5 v23 r k)

theorem valueRows_at (v8 : Vec Ideal S1x1x2048x64 .f32) (k : Fin 2048) (d : Fin 64) :
    k0_pay4 (F := Ideal) v8 (ix2 k d) = v8 (ix4 (0 : Fin 1) (0 : Fin 1) k d) := by
  unfold k0_pay4
  exact Cert.LayoutKeepdims.shapeCast_11ab_ab_apply _ _ k d

/-- THE CONTEXT BLOCK at (0, 0, r, d): for real entries, the weighted sum of the value rows. -/
theorem context_at (v0 : Vec Ideal S1x1x256x64 .f32) (v5 v8 : Vec Ideal S1x1x2048x64 .f32) (v23 : Vec Ideal S1x1x256x2048 .i32)
    (h0 : ∀ i, IsReal (v0 i)) (h5 : ∀ i, IsReal (v5 i)) (h8 : ∀ i, IsReal (v8 i)) (r : Fin 256) (d : Fin 64) :
    k0_pay3 (F := Ideal) (k0_pay4 v8) (k0_pay5 v0 v5 v23) (k0_pay6 v0 v5 v23) (ix4 (0 : Fin 1) (0 : Fin 1) r d)
      = ∑ k : Fin 2048, rowWeight (fun k' : Fin 2048 => maskedScores (F := Ideal) v0 v5 v23 (ix2 r k')) k
          * v8 (ix4 (0 : Fin 1) (0 : Fin 1) k d) := by
  unfold k0_pay3
  refine (Cert.LayoutKeepdims.shapeCast_ab_11ab_apply _ _ (0 : Fin 1) (0 : Fin 1) r d).trans ?_
  simp only [addf_apply, av_pass, truncf_apply, subf_apply, quotient_at, valueRows_at]
  exact three_passes (fun k => rowWeight (fun k' : Fin 2048 => maskedScores (F := Ideal) v0 v5 v23 (ix2 r k')) k)
    (fun k => v8 (ix4 (0 : Fin 1) (0 : Fin 1) k d))
    (fun k => rowWeight_real (by norm_num) _ (fun k' => maskedScores_real v0 v5 v23 h0 h5 r k') k) (fun k => h8 _)

end Cert.KernelIdeal.BodyAt

end
-- ==== Proof.BlockAt.lean ====
/-
  One grid point's two output blocks are blocks of the attention specification.

  A grid point is a batch b, a tile qi of 256 query rows, and a head h. If the query block handed to the body holds rows
  256·qi … 256·qi + 255 of Q in batch b and head h, the key and value slabs hold K and V of that batch and head, and
  the mask block holds the mask words of those rows, each a mask bit widened to 32 bits, then the block of weights the
  body stores is those rows of the attention weights, and the context block those rows of the context. The inputs
  are taken real: that is what makes the body's three-pass products the plain products.
-/
import proofs.«149236_j57226144252711_2_alg».proof.Proof.BodyAt

noncomputable section

open scoped BigOperators

namespace Cert.KernelIdeal.BlockAt

open Cert.KernelIdeal Cert.KernelIdeal.Gen Idealize.ShloMosaic Idealize.ShloMosaic.ValueIdx Cert.Attn Cert.SoftmaxLib Cert.RealPasses

/-- Row r of query tile qi is row 256·qi + r of the array. -/
def qrow (qi : Fin 8) (r : Fin 256) : Fin 2048 := ⟨qi.val * 256 + r.val, by omega⟩

/-- An index of a block with two leading unit axes is (0, 0, r, c). -/
theorem idx_11 {a b : ℕ} (i : (⟨4, ![1, 1, a, b]⟩ : Shape).Idx) : i = ix4 (0 : Fin 1) (0 : Fin 1) (i 2) (i 3) := by
  funext e
  match e with
  | ⟨0, _⟩ => exact Fin.ext (by show (i 0).val = 0; have h : (i 0).val < 1 := (i 0).isLt; omega)
  | ⟨1, _⟩ => exact Fin.ext (by show (i 1).val = 0; have h : (i 1).val < 1 := (i 1).isLt; omega)
  | ⟨2, _⟩ => rfl
  | ⟨3, _⟩ => rfl

section
variable (Q K V : SQ.Idx → EReal) (M : SM.Idx → BitVec 1)
  (x0 : Vec Ideal S1x1x256x64 .f32) (kh vh : Vec Ideal S1x1x2048x64 .f32) (x3 : Vec Ideal S1x1x256x2048 .i32)
  (b : Fin 2) (h : Fin 16) (qi : Fin 8)
  (e0 : ∀ (r : Fin 256) (d : Fin 64), x0 (ix4 (0 : Fin 1) (0 : Fin 1) r d) = Q (ix4 b h (qrow qi r) d))
  (e1 : ∀ (k : Fin 2048) (d : Fin 64), kh (ix4 (0 : Fin 1) (0 : Fin 1) k d) = K (ix4 b h k d))
  (e2 : ∀ (k : Fin 2048) (d : Fin 64), vh (ix4 (0 : Fin 1) (0 : Fin 1) k d) = V (ix4 b h k d))
  (e3 : ∀ (r : Fin 256) (k : Fin 2048), x3 (ix4 (0 : Fin 1) (0 : Fin 1) r k) = (M (ix4 b (0 : Fin 1) (qrow qi r) k)).setWidth 32)
  (hQ : ∀ i, IsReal (Q i)) (hK : ∀ i, IsReal (K i)) (hV : ∀ i, IsReal (V i))

include e0 hQ in
theorem queries_real (i : S1x1x256x64.Idx) : IsReal (x0 i) := by
  obtain ⟨r, d, rfl⟩ : ∃ (r : Fin 256) (d : Fin 64), i = ix4 (0 : Fin 1) (0 : Fin 1) r d := ⟨i 2, i 3, idx_11 i⟩
  rw [e0]; exact hQ _
include e1 hK in
theorem keys_real (i : S1x1x2048x64.Idx) : IsReal (kh i) := by
  obtain ⟨k, d, rfl⟩ : ∃ (k : Fin 2048) (d : Fin 64), i = ix4 (0 : Fin 1) (0 : Fin 1) k d := ⟨i 2, i 3, idx_11 i⟩
  rw [e1]; exact hK _
include e2 hV in
theorem values_real (i : S1x1x2048x64.Idx) : IsReal (vh i) := by
  obtain ⟨k, d, rfl⟩ : ∃ (k : Fin 2048) (d : Fin 64), i = ix4 (0 : Fin 1) (0 : Fin 1) k d := ⟨i 2, i 3, idx_11 i⟩
  rw [e2]; exact hV _

include e0 e1 e3 hQ hK in
/-- The masked scores of block row r are the specification's masked scores of array row 256·qi + r. -/
theorem scores_block (r : Fin 256) :
    (fun k' : Fin 2048 => BodyAt.maskedScores (F := Ideal) x0 kh x3 (ix2 r k')) = scoreRow Q K M b h (qrow qi r) := by
  funext k'
  rw [BodyAt.maskedScores_at x0 kh x3 (queries_real Q x0 b h qi e0 hQ) (keys_real K kh b h e1 hK) r k', e3, widened_ne_zero]
  unfold scoreRow Cert.Attn.inner
  simp only [e0, e1]

include e0 e1 e3 hQ hK in
/-- THE WEIGHTS BLOCK: entry (0, 0, r, k) is the attention weight (b, h, 256·qi + r, k). -/
theorem weights_block (r : Fin 256) (k : Fin 2048) :
    k0_pay2 (F := Ideal) (k0_pay5 x0 kh x3) (k0_pay6 x0 kh x3) (ix4 (0 : Fin 1) (0 : Fin 1) r k)
      = attn Q K M (ix4 b h (qrow qi r) k) := by
  rw [BodyAt.weights_at, scores_block Q K M x0 kh x3 b h qi e0 e1 e3 hQ hK r]
  rfl

include e0 e1 e2 e3 hQ hK hV in
/-- THE CONTEXT BLOCK: entry (0, 0, r, d) is the context entry (b, h, 256·qi + r, d). -/
theorem context_block (r : Fin 256) (d : Fin 64) :
    k0_pay3 (F := Ideal) (k0_pay4 vh) (k0_pay5 x0 kh x3) (k0_pay6 x0 kh x3) (ix4 (0 : Fin 1) (0 : Fin 1) r d)
      = ctx Q K V M (ix4 b h (qrow qi r) d) := by
  rw [BodyAt.context_at x0 kh vh x3 (queries_real Q x0 b h qi e0 hQ) (keys_real K kh b h e1 hK) (values_real V vh b h e2 hV) r d,
    scores_block Q K M x0 kh x3 b h qi e0 e1 e3 hQ hK r]
  unfold ctx attn
  exact Finset.sum_congr rfl fun k _ => by rw [e2]

end

end Cert.KernelIdeal.BlockAt

end
-- ==== Proof.Blocks.lean ====
/-
  The two result arrays of the kernel are the attention specification of the argument arrays.

  The grid's 256 points are the triples (batch, query tile, head), the head running fastest: point t has batch t / 128,
  tile (t / 16) mod 8 and head t mod 16. At point t the query window holds that batch's, head's and tile's 256 rows of
  Q; the key and value windows hold the whole batch, of which the body reads the head's slab; the mask window holds the
  mask words of the batch's tile, each the mask bit widened to a 32-bit word by the host before the call. Both output
  windows write back, at every point, the block of their array at (batch, head, tile). So what point t writes back is
  that block of the specification, the blocks of the 256 points cover both arrays, and each array ends as the
  specification. The inputs are taken real.
-/
import proofs.«149236_j57226144252711_2_alg».proof.Proof.Gen.KernelIdeal.Value
import proofs.«149236_j57226144252711_2_alg».proof.Proof.Pieces
import proofs.«149236_j57226144252711_2_alg».proof.Proof.BlockAt
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Attn Cert.RealPasses
open Cert.KernelIdeal.BlockAt (qrow)

variable (m : (ℓ : Loc nD τ sig) → Buf (Elt Ideal) ℓ) (ρ : Dev nD → PrngReg)

/-! ## The index maps over the grid -/

theorem idx0 : ∀ t : Fin cfg0.N, win0_0.index t (0 : Fin 4) = t.val / 128 ∧ win0_0.index t (1 : Fin 4) = t.val % 16
    ∧ win0_0.index t (2 : Fin 4) = t.val / 16 % 8 ∧ win0_0.index t (3 : Fin 4) = 0 :=
  (by decide +kernel : ∀ t : Fin grid0.N, _)
theorem idx1 : ∀ t : Fin cfg0.N, win0_1.index t (0 : Fin 4) = t.val / 128 ∧ win0_1.index t (1 : Fin 4) = 0
    ∧ win0_1.index t (2 : Fin 4) = 0 ∧ win0_1.index t (3 : Fin 4) = 0 :=
  (by decide +kernel : ∀ t : Fin grid0.N, _)
theorem idx2 : ∀ t : Fin cfg0.N, win0_2.index t (0 : Fin 4) = t.val / 128 ∧ win0_2.index t (1 : Fin 4) = 0
    ∧ win0_2.index t (2 : Fin 4) = 0 ∧ win0_2.index t (3 : Fin 4) = 0 :=
  (by decide +kernel : ∀ t : Fin grid0.N, _)
theorem idx3 : ∀ t : Fin cfg0.N, win0_3.index t (0 : Fin 4) = t.val / 128 ∧ win0_3.index t (1 : Fin 4) = 0
    ∧ win0_3.index t (2 : Fin 4) = t.val / 16 % 8 ∧ win0_3.index t (3 : Fin 4) = 0 :=
  (by decide +kernel : ∀ t : Fin grid0.N, _)
theorem idx4 : ∀ t : Fin cfg0.N, win0_4.index t (0 : Fin 4) = t.val / 128 ∧ win0_4.index t (1 : Fin 4) = t.val % 16
    ∧ win0_4.index t (2 : Fin 4) = t.val / 16 % 8 ∧ win0_4.index t (3 : Fin 4) = 0 :=
  (by decide +kernel : ∀ t : Fin grid0.N, _)
theorem idx5 : ∀ t : Fin cfg0.N, win0_5.index t (0 : Fin 4) = t.val / 128 ∧ win0_5.index t (1 : Fin 4) = t.val % 16
    ∧ win0_5.index t (2 : Fin 4) = t.val / 16 % 8 ∧ win0_5.index t (3 : Fin 4) = 0 :=
  (by decide +kernel : ∀ t : Fin grid0.N, _)
/-- The body's load offset into the sixteen-head blocks is the point's head. -/
theorem off1 : ∀ t : Fin cfg0.N, k0_off1 (grid0.coords t) (0 : Fin 4) = 0 ∧ k0_off1 (grid0.coords t) (1 : Fin 4) = t.val % 16
    ∧ k0_off1 (grid0.coords t) (2 : Fin 4) = 0 ∧ k0_off1 (grid0.coords t) (3 : Fin 4) = 0 :=
  (by decide +kernel : ∀ t : Fin grid0.N, _)

/-- A point's batch, head and query tile. -/
def batchOf (t : Fin cfg0.N) : Fin 2 := ⟨t.val / 128, by have hN : cfg0.N = 256 := N_0; have := t.isLt; omega⟩
def headAt (t : Fin cfg0.N) : Fin 16 := ⟨t.val % 16, Nat.mod_lt _ (by norm_num)⟩
def tileOf (t : Fin cfg0.N) : Fin 8 := ⟨t.val / 16 % 8, Nat.mod_lt _ (by norm_num)⟩

/-! ## What the windows hold at a point -/

/-- The query block at point t: rows of Q. -/
theorem q_block (c : Dev nD) (t : Fin cfg0.N) (r : Fin 256) (d : Fin 64) :
    iblk m c 0 t (ix4 (0 : Fin 1) (0 : Fin 1) r d) = (m ((c : Thread nD τ).loc main_arg0)) (ix4 (batchOf t) (headAt t) (qrow (tileOf t) r) d) := by
  obtain ⟨e0, e1, e2, e3⟩ := idx0 t
  unfold iblk
  rw [View.read_apply]
  show V m c main_arg0 _ = _
  rw [V_main_arg0]
  refine congrArg _ (funext fun a => Fin.ext ?_)
  match a with
  | ⟨0, _⟩ => show win0_0.index t (0 : Fin 4) * 1 + 1 * 0 = t.val / 128; omega
  | ⟨1, _⟩ => show win0_0.index t (1 : Fin 4) * 1 + 1 * 0 = t.val % 16; omega
  | ⟨2, _⟩ => show win0_0.index t (2 : Fin 4) * 256 + 1 * r.val = t.val / 16 % 8 * 256 + r.val; omega
  | ⟨3, _⟩ => show win0_0.index t (3 : Fin 4) * 64 + 1 * d.val = d.val; omega

/-- The head's slab of the key block at point t: rows of K. -/
theorem k_head (c : Dev nD) (t : Fin cfg0.N) (k : Fin 2048) (d : Fin 64) :
    Pieces.headOf (grid0.coords t) (iblk m c 1 t) (ix4 (0 : Fin 1) (0 : Fin 1) k d) = (m ((c : Thread nD τ).loc main_arg1)) (ix4 (batchOf t) (headAt t) k d) := by
  obtain ⟨e0, e1, e2, e3⟩ := idx1 t
  obtain ⟨o0, o1, o2, o3⟩ := off1 t
  unfold Pieces.headOf View.ld iblk
  rw [View.read_apply]
  show V m c main_arg1 _ = _
  rw [V_main_arg1]
  refine congrArg _ (funext fun a => Fin.ext ?_)
  match a with
  | ⟨0, _⟩ => show win0_1.index t (0 : Fin 4) * 1 + 1 * (k0_off1 (grid0.coords t) (0 : Fin 4) + 1 * 0) = t.val / 128; omega
  | ⟨1, _⟩ => show win0_1.index t (1 : Fin 4) * 16 + 1 * (k0_off1 (grid0.coords t) (1 : Fin 4) + 1 * 0) = t.val % 16; omega
  | ⟨2, _⟩ => show win0_1.index t (2 : Fin 4) * 2048 + 1 * (k0_off1 (grid0.coords t) (2 : Fin 4) + 1 * k.val) = k.val; omega
  | ⟨3, _⟩ => show win0_1.index t (3 : Fin 4) * 64 + 1 * (k0_off1 (grid0.coords t) (3 : Fin 4) + 1 * d.val) = d.val; omega

/-- The head's slab of the value block at point t: rows of V. -/
theorem v_head (c : Dev nD) (t : Fin cfg0.N) (k : Fin 2048) (d : Fin 64) :
    Pieces.headOf (grid0.coords t) (iblk m c 2 t) (ix4 (0 : Fin 1) (0 : Fin 1) k d) = (m ((c : Thread nD τ).loc main_arg2)) (ix4 (batchOf t) (headAt t) k d) := by
  obtain ⟨e0, e1, e2, e3⟩ := idx2 t
  obtain ⟨o0, o1, o2, o3⟩ := off1 t
  unfold Pieces.headOf View.ld iblk
  rw [View.read_apply]
  show V m c main_arg2 _ = _
  rw [V_main_arg2]
  refine congrArg _ (funext fun a => Fin.ext ?_)
  match a with
  | ⟨0, _⟩ => show win0_2.index t (0 : Fin 4) * 1 + 1 * (k0_off1 (grid0.coords t) (0 : Fin 4) + 1 * 0) = t.val / 128; omega
  | ⟨1, _⟩ => show win0_2.index t (1 : Fin 4) * 16 + 1 * (k0_off1 (grid0.coords t) (1 : Fin 4) + 1 * 0) = t.val % 16; omega
  | ⟨2, _⟩ => show win0_2.index t (2 : Fin 4) * 2048 + 1 * (k0_off1 (grid0.coords t) (2 : Fin 4) + 1 * k.val) = k.val; omega
  | ⟨3, _⟩ => show win0_2.index t (3 : Fin 4) * 64 + 1 * (k0_off1 (grid0.coords t) (3 : Fin 4) + 1 * d.val) = d.val; omega

/-- The array of mask words the region finds: the host widened every mask bit to a 32-bit word. -/
theorem mask_words (c : Dev nD) :
    (V m c main_v0 : S2x1x2048x2048.Idx → BitVec 32) = extui 32 (m ((c : Thread nD τ).loc main_arg3)) natLt_1_32 := by
  dsimp only [Gen.V, Gen.hostOps0]
  after_results

/-- The mask block at point t: widened mask bits of the batch's tile. -/
theorem mask_block (c : Dev nD) (t : Fin cfg0.N) (r : Fin 256) (k : Fin 2048) :
    iblk m c 3 t (ix4 (0 : Fin 1) (0 : Fin 1) r k)
      = ((m ((c : Thread nD τ).loc main_arg3)) (ix4 (batchOf t) (0 : Fin 1) (qrow (tileOf t) r) k)).setWidth 32 := by
  obtain ⟨e0, e1, e2, e3⟩ := idx3 t
  unfold iblk
  rw [View.read_apply]
  show V m c main_v0 _ = _
  rw [mask_words]
  show ((m ((c : Thread nD τ).loc main_arg3)) _).setWidth 32 = _
  refine congrArg (fun x => ((m ((c : Thread nD τ).loc main_arg3)) x).setWidth 32) (funext fun a => Fin.ext ?_)
  match a with
  | ⟨0, _⟩ => show win0_3.index t (0 : Fin 4) * 1 + 1 * 0 = t.val / 128; omega
  | ⟨1, _⟩ => show win0_3.index t (1 : Fin 4) * 1 + 1 * 0 = 0; omega
  | ⟨2, _⟩ => show win0_3.index t (2 : Fin 4) * 256 + 1 * r.val = t.val / 16 % 8 * 256 + r.val; omega
  | ⟨3, _⟩ => show win0_3.index t (3 : Fin 4) * 2048 + 1 * k.val = k.val; omega

/-! ## What a point writes back -/

section
variable (c : Dev nD)
  (hQ : ∀ i, IsReal ((m ((c : Thread nD τ).loc main_arg0)) i)) (hK : ∀ i, IsReal ((m ((c : Thread nD τ).loc main_arg1)) i)) (hV : ∀ i, IsReal ((m ((c : Thread nD τ).loc main_arg2)) i))

include hQ hK in
/-- Point t writes back, to the array of weights, its block of the specification's weights. -/
theorem weights_written (t : Fin cfg0.N) :
    (dats m 0 c).flushed 5 t = ((cfg0.win 5).blk t).view.read (Elt Ideal) (attn (m ((c : Thread nD τ).loc main_arg0)) (m ((c : Thread nD τ).loc main_arg1)) (m ((c : Thread nD τ).loc main_arg3))) := by
  obtain ⟨e0, e1, e2, e3⟩ := idx5 t
  rw [Value.flushed5_A, Pieces.weights_left]
  funext j
  obtain ⟨r, k, rfl⟩ : ∃ (r : Fin 256) (k : Fin 2048), j = ix4 (0 : Fin 1) (0 : Fin 1) r k := ⟨j 2, j 3, BlockAt.idx_11 j⟩
  rw [View.read_apply]
  show k0_pay2 (F := Ideal) (k0_pay5 (iblk m c 0 t) (Pieces.headOf (grid0.coords t) (iblk m c 1 t)) (iblk m c 3 t)) (k0_pay6 (iblk m c 0 t) (Pieces.headOf (grid0.coords t) (iblk m c 1 t)) (iblk m c 3 t)) (ix4 (0 : Fin 1) (0 : Fin 1) r k)
    = attn (m ((c : Thread nD τ).loc main_arg0)) (m ((c : Thread nD τ).loc main_arg1)) (m ((c : Thread nD τ).loc main_arg3)) (((cfg0.win 5).blk t).view.emb (ix4 (0 : Fin 1) (0 : Fin 1) r k))
  refine (BlockAt.weights_block (m ((c : Thread nD τ).loc main_arg0)) (m ((c : Thread nD τ).loc main_arg1)) (m ((c : Thread nD τ).loc main_arg3)) (iblk m c 0 t) (Pieces.headOf (grid0.coords t) (iblk m c 1 t)) (iblk m c 3 t)
    (batchOf t) (headAt t) (tileOf t) (q_block m c t) (k_head m c t) (mask_block m c t) hQ hK r k).trans ?_
  refine congrArg _ (funext fun a => Fin.ext ?_)
  match a with
  | ⟨0, _⟩ => show t.val / 128 = win0_5.index t (0 : Fin 4) * 1 + 1 * 0; omega
  | ⟨1, _⟩ => show t.val % 16 = win0_5.index t (1 : Fin 4) * 1 + 1 * 0; omega
  | ⟨2, _⟩ => show t.val / 16 % 8 * 256 + r.val = win0_5.index t (2 : Fin 4) * 256 + 1 * r.val; omega
  | ⟨3, _⟩ => show k.val = win0_5.index t (3 : Fin 4) * 2048 + 1 * k.val; omega

include hQ hK hV in
/-- Point t writes back, to the context array, its block of the specification's context. -/
theorem context_written (t : Fin cfg0.N) :
    (dats m 0 c).flushed 4 t = ((cfg0.win 4).blk t).view.read (Elt Ideal) (ctx (m ((c : Thread nD τ).loc main_arg0)) (m ((c : Thread nD τ).loc main_arg1)) (m ((c : Thread nD τ).loc main_arg2)) (m ((c : Thread nD τ).loc main_arg3))) := by
  obtain ⟨e0, e1, e2, e3⟩ := idx4 t
  rw [Value.flushed4_A, Pieces.context_left]
  funext j
  obtain ⟨r, d, rfl⟩ : ∃ (r : Fin 256) (d : Fin 64), j = ix4 (0 : Fin 1) (0 : Fin 1) r d := ⟨j 2, j 3, BlockAt.idx_11 j⟩
  rw [View.read_apply]
  show k0_pay3 (F := Ideal) (k0_pay4 (Pieces.headOf (grid0.coords t) (iblk m c 2 t))) (k0_pay5 (iblk m c 0 t) (Pieces.headOf (grid0.coords t) (iblk m c 1 t)) (iblk m c 3 t)) (k0_pay6 (iblk m c 0 t) (Pieces.headOf (grid0.coords t) (iblk m c 1 t)) (iblk m c 3 t)) (ix4 (0 : Fin 1) (0 : Fin 1) r d)
    = ctx (m ((c : Thread nD τ).loc main_arg0)) (m ((c : Thread nD τ).loc main_arg1)) (m ((c : Thread nD τ).loc main_arg2)) (m ((c : Thread nD τ).loc main_arg3)) (((cfg0.win 4).blk t).view.emb (ix4 (0 : Fin 1) (0 : Fin 1) r d))
  refine (BlockAt.context_block (m ((c : Thread nD τ).loc main_arg0)) (m ((c : Thread nD τ).loc main_arg1)) (m ((c : Thread nD τ).loc main_arg2)) (m ((c : Thread nD τ).loc main_arg3)) (iblk m c 0 t) (Pieces.headOf (grid0.coords t) (iblk m c 1 t))
    (Pieces.headOf (grid0.coords t) (iblk m c 2 t)) (iblk m c 3 t)
    (batchOf t) (headAt t) (tileOf t) (q_block m c t) (k_head m c t) (v_head m c t) (mask_block m c t) hQ hK hV r d).trans ?_
  refine congrArg _ (funext fun a => Fin.ext ?_)
  match a with
  | ⟨0, _⟩ => show t.val / 128 = win0_4.index t (0 : Fin 4) * 1 + 1 * 0; omega
  | ⟨1, _⟩ => show t.val % 16 = win0_4.index t (1 : Fin 4) * 1 + 1 * 0; omega
  | ⟨2, _⟩ => show t.val / 16 % 8 * 256 + r.val = win0_4.index t (2 : Fin 4) * 256 + 1 * r.val; omega
  | ⟨3, _⟩ => show d.val = win0_4.index t (3 : Fin 4) * 64 + 1 * d.val; omega

/-! ## The blocks cover the arrays -/

/-- An entry of the weights array is in point t's block iff each coordinate is in the block's range on its axis. -/
theorem mem_weights_blk (t : Fin cfg0.N) (i : S2x16x2048x2048.Idx) :
    i ∈ ((cfg0.win 5).blk t).view.set ↔ ∀ a : Fin 4, win0_5.index t a * S1x1x256x2048.size a ≤ (i a).val
      ∧ (i a).val < win0_5.index t a * S1x1x256x2048.size a + S1x1x256x2048.size a := by
  show i ∈ ((View.whole main_v1_1).slice (win0_5.rect t)).set ↔ _
  rw [View.set_slice_whole, Rect.mem_set_unit]
  exact Iff.rfl

theorem mem_context_blk (t : Fin cfg0.N) (i : S2x16x2048x64.Idx) :
    i ∈ ((cfg0.win 4).blk t).view.set ↔ ∀ a : Fin 4, win0_4.index t a * S1x1x256x64.size a ≤ (i a).val
      ∧ (i a).val < win0_4.index t a * S1x1x256x64.size a + S1x1x256x64.size a := by
  show i ∈ ((View.whole main_v1_0).slice (win0_4.rect t)).set ↔ _
  rw [View.set_slice_whole, Rect.mem_set_unit]
  exact Iff.rfl

/-- Entry (b, h, q, k) of the weights array lies in the block of the point (b, q / 256, h). -/
theorem weights_covered (i : S2x16x2048x2048.Idx) :
    ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 2048 := (i 3).isLt
  have hN : cfg0.N = 256 := N_0
  refine ⟨⟨((i 0).val * 8 + (i 2).val / 256) * 16 + (i 1).val, by omega⟩, flush0_5 _, ?_⟩
  rw [mem_weights_blk]
  obtain ⟨e0, e1, e2, e3⟩ := idx5 ⟨((i 0).val * 8 + (i 2).val / 256) * 16 + (i 1).val, by omega⟩
  dsimp only at e0 e1 e2 e3
  intro a
  match a with
  | ⟨0, _⟩ => show win0_5.index _ (0 : Fin 4) * 1 ≤ (i 0).val ∧ (i 0).val < win0_5.index _ (0 : Fin 4) * 1 + 1; omega
  | ⟨1, _⟩ => show win0_5.index _ (1 : Fin 4) * 1 ≤ (i 1).val ∧ (i 1).val < win0_5.index _ (1 : Fin 4) * 1 + 1; omega
  | ⟨2, _⟩ => show win0_5.index _ (2 : Fin 4) * 256 ≤ (i 2).val ∧ (i 2).val < win0_5.index _ (2 : Fin 4) * 256 + 256; omega
  | ⟨3, _⟩ => show win0_5.index _ (3 : Fin 4) * 2048 ≤ (i 3).val ∧ (i 3).val < win0_5.index _ (3 : Fin 4) * 2048 + 2048; omega

/-- Entry (b, h, q, d) of the context array lies in the block of the point (b, q / 256, h). -/
theorem context_covered (i : S2x16x2048x64.Idx) :
    ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  have hN : cfg0.N = 256 := N_0
  refine ⟨⟨((i 0).val * 8 + (i 2).val / 256) * 16 + (i 1).val, by omega⟩, flush0_4 _, ?_⟩
  rw [mem_context_blk]
  obtain ⟨e0, e1, e2, e3⟩ := idx4 ⟨((i 0).val * 8 + (i 2).val / 256) * 16 + (i 1).val, by omega⟩
  dsimp only at e0 e1 e2 e3
  intro a
  match a with
  | ⟨0, _⟩ => show win0_4.index _ (0 : Fin 4) * 1 ≤ (i 0).val ∧ (i 0).val < win0_4.index _ (0 : Fin 4) * 1 + 1; omega
  | ⟨1, _⟩ => show win0_4.index _ (1 : Fin 4) * 1 ≤ (i 1).val ∧ (i 1).val < win0_4.index _ (1 : Fin 4) * 1 + 1; omega
  | ⟨2, _⟩ => show win0_4.index _ (2 : Fin 4) * 256 ≤ (i 2).val ∧ (i 2).val < win0_4.index _ (2 : Fin 4) * 256 + 256; omega
  | ⟨3, _⟩ => show win0_4.index _ (3 : Fin 4) * 64 ≤ (i 3).val ∧ (i 3).val < win0_4.index _ (3 : Fin 4) * 64 + 64; omega

/-! ## The arrays after the run -/

include hQ hK in
/-- The array of weights ends as the specification's attention weights. -/
theorem weights_final : (dats m 0 c).arrAt 5 cfg0.N = attn (m ((c : Thread nD τ).loc main_arg0)) (m ((c : Thread nD τ).loc main_arg1)) (m ((c : Thread nD τ).loc main_arg3)) :=
  (dats m 0 c).arrAt_eq_of_cover 5 (attn (m ((c : Thread nD τ).loc main_arg0)) (m ((c : Thread nD τ).loc main_arg1)) (m ((c : Thread nD τ).loc main_arg3))) (fun t _ => weights_written m c hQ hK t) weights_covered

include hQ hK hV in
/-- The context array ends as the specification's context. -/
theorem context_final : (dats m 0 c).arrAt 4 cfg0.N = ctx (m ((c : Thread nD τ).loc main_arg0)) (m ((c : Thread nD τ).loc main_arg1)) (m ((c : Thread nD τ).loc main_arg2)) (m ((c : Thread nD τ).loc main_arg3)) :=
  (dats m 0 c).arrAt_eq_of_cover 4 (ctx (m ((c : Thread nD τ).loc main_arg0)) (m ((c : Thread nD τ).loc main_arg1)) (m ((c : Thread nD τ).loc main_arg2)) (m ((c : Thread nD τ).loc main_arg3))) (fun t _ => context_written m c hQ hK hV t) context_covered

end

/-- THE RUN: from a memory whose three float arguments are real everywhere, every weakly fair execution ends with the
    context array at the specification's context, the weights array at the specification's weights, and the arguments
    unchanged. -/
theorem run (hQ : ∀ (c : Dev nD) i, IsReal ((m ((c : Thread nD τ).loc main_arg0)) i)) (hK : ∀ (c : Dev nD) i, IsReal ((m ((c : Thread nD τ).loc main_arg1)) i))
    (hV : ∀ (c : Dev nD) i, IsReal ((m ((c : Thread nD τ).loc main_arg2)) i)) :
    θ_run defs (onTc (τ := τ) (main (F := Ideal))) ⟨m, fun _ => 0, ρ⟩ fun r => ∀ c : Dev nD,
      r.2.mem ((c : Thread nD τ).loc main_v1_0) = ctx (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = attn (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (context_final m c (hQ c) (hK c) (hV c)),
      (h c).2.1.trans (weights_final m c (hQ c) (hK c)), (h c).2.2⟩)
    (Value.run_blocks m ρ)

end Cert.KernelIdeal.Blocks

end
-- ==== Proof.LibMaxMinFold.lean ====
/-
  General facts about maxima and minima taken as folds, at the extended reals.

  1. Grouping. In a linear order the fold of `max` from a start value `b` over a finite family is the least upper bound
     of `b` and the family's terms; so the maximum of four such folds over four sub-families, each from the same `b`,
     is the fold over the whole family as soon as every index lies in one of the four (`b` counted four times is
     harmless: `max` is idempotent). The same for `min` and greatest lower bounds. Nothing is asked of the terms: the
     statements hold at +∞ and −∞.
  2. Reductions over ONE axis read at a result index, with the extended reals as values: a vector `multi_reduction` by
     `minimumf` and the host's one-operand `reduce` with a `maximumf` or `minimumf` body are the fold of `min` / `max`,
     from the initial value, over that axis's coordinates `k`, of the source at the result index with `k` inserted on
     the dropped axis. (For a vector `multi_reduction` by `maximumf` this is the library's
     `Ideal.multiReduction_maximumf_single`.)
-/
import Idealize.ShloMosaic.PureOps.Ideal.Laws
import Mathlib.Data.Finset.Fold

noncomputable section

namespace Cert.MaxMinFold

open Idealize.ShloMosaic

/-! ## Folding over four sub-families that cover the index set -/

section Runs

variable {α : Type} [LinearOrder α] {ι κ : Type} [Fintype ι] [Fintype κ]

/-- The maximum of four partial maxima, each folded from `b` over one sub-family `f ∘ g c`, is the maximum folded from
    `b` over the whole family `f`, when every index of `f` is `g c k` for some `c` and `k`. Both sides are the least upper
    bound of `b` and the terms of `f`. -/
theorem fold_max_runs (b : α) (f : ι → α) (g0 g1 g2 g3 : κ → ι)
    (hcov : ∀ i : ι, ∃ k : κ, g0 k = i ∨ g1 k = i ∨ g2 k = i ∨ g3 k = i) :
    max (max (max (Finset.univ.fold max b (f ∘ g0)) (Finset.univ.fold max b (f ∘ g1)))
        (Finset.univ.fold max b (f ∘ g2))) (Finset.univ.fold max b (f ∘ g3))
      = Finset.univ.fold max b f := by
  have hb : ∀ g : κ → ι, b ≤ Finset.univ.fold max b (f ∘ g) := fun g =>
    (Finset.le_fold_max _).2 (Or.inl le_rfl)
  have hk : ∀ (g : κ → ι) (k : κ), f (g k) ≤ Finset.univ.fold max b (f ∘ g) := fun g k =>
    (Finset.le_fold_max _).2 (Or.inr ⟨k, Finset.mem_univ k, le_rfl⟩)
  have hrun : ∀ g : κ → ι, Finset.univ.fold max b (f ∘ g) ≤ Finset.univ.fold max b f := fun g =>
    (Finset.fold_max_le _).2 ⟨(Finset.le_fold_max _).2 (Or.inl le_rfl),
      fun k _ => (Finset.le_fold_max _).2 (Or.inr ⟨g k, Finset.mem_univ _, le_rfl⟩)⟩
  apply le_antisymm
  · exact max_le (max_le (max_le (hrun g0) (hrun g1)) (hrun g2)) (hrun g3)
  · refine (Finset.fold_max_le _).2 ⟨?_, fun i _ => ?_⟩
    · exact le_max_of_le_right (hb g3)
    · obtain ⟨k, h | h | h | h⟩ := hcov i
      · rw [← h]; exact le_max_of_le_left (le_max_of_le_left (le_max_of_le_left (hk g0 k)))
      · rw [← h]; exact le_max_of_le_left (le_max_of_le_left (le_max_of_le_right (hk g1 k)))
      · rw [← h]; exact le_max_of_le_left (le_max_of_le_right (hk g2 k))
      · rw [← h]; exact le_max_of_le_right (hk g3 k)

/-- The same for the minimum: both sides are the greatest lower bound of `b` and the terms of `f`. -/
theorem fold_min_runs (b : α) (f : ι → α) (g0 g1 g2 g3 : κ → ι)
    (hcov : ∀ i : ι, ∃ k : κ, g0 k = i ∨ g1 k = i ∨ g2 k = i ∨ g3 k = i) :
    min (min (min (Finset.univ.fold min b (f ∘ g0)) (Finset.univ.fold min b (f ∘ g1)))
        (Finset.univ.fold min b (f ∘ g2))) (Finset.univ.fold min b (f ∘ g3))
      = Finset.univ.fold min b f := by
  have hb : ∀ g : κ → ι, Finset.univ.fold min b (f ∘ g) ≤ b := fun g =>
    (Finset.fold_min_le _).2 (Or.inl le_rfl)
  have hk : ∀ (g : κ → ι) (k : κ), Finset.univ.fold min b (f ∘ g) ≤ f (g k) := fun g k =>
    (Finset.fold_min_le _).2 (Or.inr ⟨k, Finset.mem_univ k, le_rfl⟩)
  have hrun : ∀ g : κ → ι, Finset.univ.fold min b f ≤ Finset.univ.fold min b (f ∘ g) := fun g =>
    (Finset.le_fold_min _).2 ⟨(Finset.fold_min_le _).2 (Or.inl le_rfl),
      fun k _ => (Finset.fold_min_le _).2 (Or.inr ⟨g k, Finset.mem_univ _, le_rfl⟩)⟩
  apply le_antisymm
  · refine (Finset.le_fold_min _).2 ⟨?_, fun i _ => ?_⟩
    · exact min_le_of_right_le (hb g3)
    · obtain ⟨k, h | h | h | h⟩ := hcov i
      · rw [← h]; exact min_le_of_left_le (min_le_of_left_le (min_le_of_left_le (hk g0 k)))
      · rw [← h]; exact min_le_of_left_le (min_le_of_left_le (min_le_of_right_le (hk g1 k)))
      · rw [← h]; exact min_le_of_left_le (min_le_of_right_le (hk g2 k))
      · rw [← h]; exact min_le_of_right_le (hk g3 k)
  · exact le_min (le_min (le_min (hrun g0) (hrun g1)) (hrun g2)) (hrun g3)

end Runs

/-! ## One-axis reductions at the extended reals, read at a result index -/

section OneAxis

variable {s t : Shape} {a : Fin s.rank}

/-- A float vector `multi_reduction` by `minimumf` over one axis, at the extended reals: the fold of `min`, from the
    accumulator word's value, over that axis's coordinates. -/
theorem multiReduction_minimumf_single {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The host's one-operand `reduce` with a `maximumf` body over one axis, at the extended reals: the fold of `max`, from
    the initial value's element, over that axis's coordinates. -/
theorem hostReduce_maximumf_single {u : Shape} {φ : FTy} (x : s.Idx → EReal) (init : u.Idx → EReal)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single (FloatOps.maximumf (F := Ideal) (φ := φ)) x init h' h hu j

/-- The same with a `minimumf` body: the fold of `min`. -/
theorem hostReduce_minimumf_single {u : Shape} {φ : FTy} (x : s.Idx → EReal) (init : u.Idx → EReal)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end OneAxis

end Cert.MaxMinFold

end
-- ==== Proof.RefIsSpec.lean ====
/-
  The reference's two results are the attention specification, entry by entry, on the extended reals.

  For batch b, head h, query row q and key k the reference takes: the inner product over the 64 features of row q of Q and
  row k of K, divided by the square root of the word 64; the fill word where the mask is set; the row maximum, as the larger
  of -inf and a maximum over the keys started from -inf; the exponential of the score less that maximum; the row sum, as a
  sum over the keys started from the zero word; the quotient of the two; and, for the context, the sum over the keys of that
  quotient times V's entry. Each of these, read at an index given by its coordinates, is the corresponding term of the
  specification: the -inf word is the bottom element, so the larger of it and x is x; the zero word is 0; every other
  step is a re-indexing. No finiteness of the inputs is used.
-/
import proofs.«149236_j57226144252711_2_alg».proof.Proof.Gen.ReferenceIdeal.Read
import proofs.«149236_j57226144252711_2_alg».proof.Proof.AttnSpec
import proofs.«149236_j57226144252711_2_alg».proof.Proof.LibMaxMinFold
import proofs.«149236_j57226144252711_2_alg».proof.Proof.LibBitFolds

noncomputable section

open scoped BigOperators

namespace Cert.RefIsSpec

open Idealize.ShloMosaic Idealize.ShloMosaic.ValueIdx Cert.ReferenceIdeal Cert.ReferenceIdeal.Gen Cert.ReferenceIdeal.Read Cert.Attn
  Cert.SoftmaxLib

/-! ## The index maps of the stages, at an index given by its coordinates -/

theorem lidx_v0_at (b : Fin 2) (h : Fin 16) (q k : Fin 2048) (d : Fin 64) :
    lidx_main_v0 (ix4 b h q k) d = ix4 b h q d :=
  funext fun a => Fin.ext (by match a with | ⟨0, _⟩ => rfl | ⟨1, _⟩ => rfl | ⟨2, _⟩ => rfl | ⟨3, _⟩ => rfl)

theorem ridx_v0_at (b : Fin 2) (h : Fin 16) (q k : Fin 2048) (d : Fin 64) :
    ridx_main_v0 (ix4 b h q k) d = ix4 b h k d :=
  funext fun a => Fin.ext (by match a with | ⟨0, _⟩ => rfl | ⟨1, _⟩ => rfl | ⟨2, _⟩ => rfl | ⟨3, _⟩ => rfl)

theorem idx_call0_v0_at (b : Fin 2) (h : Fin 16) (q k : Fin 2048) :
    idx_main_call0_v0 (ix4 b h q k) = ix4 b (0 : Fin 1) q k :=
  funext fun a => Fin.ext (by match a with | ⟨0, _⟩ => rfl | ⟨1, _⟩ => rfl | ⟨2, _⟩ => rfl | ⟨3, _⟩ => rfl)

/-! ## The scores -/

/-- The scaled score at (b, h, q, k): the inner product of the two rows over the root. -/
theorem score_at (Q K : (⟨S2x16x2048x64, .f32⟩ : BufTy).Contents (Elt Ideal)) (b : Fin 2) (h : Fin 16) (q k : Fin 2048) :
    val_main_v3 (F := Ideal) Q K (ix4 b h q k) = Ideal.div (inner Q K b h q k) root := by
  rw [val_main_v3_apply, val_main_v0_apply, val_main_v2_apply, val_main_v1_apply, val_main_cst_apply]
  simp only [Ideal.hostDivf_def, Ideal.hostUnary_sqrt_def, Ideal.ofBits_def, lidx_v0_at, ridx_v0_at]
  rfl

/-- The masked score at (b, h, q, k). -/
theorem masked_at (Q K : (⟨S2x16x2048x64, .f32⟩ : BufTy).Contents (Elt Ideal)) (M : (⟨S2x1x2048x2048, .i1⟩ : BufTy).Contents (Elt Ideal))
    (b : Fin 2) (h : Fin 16) (q k : Fin 2048) :
    val_main_v4 (F := Ideal) Q K M (ix4 b h q k) = scoreRow Q K M b h q k := by
  rw [val_main_v4_apply, val_main_call0_v0_apply, val_main_call0_v1_apply, val_main_cst_0_apply, score_at, idx_call0_v0_at]
  rfl

/-! ## The row maximum -/

/-- The index over (b, h, q) with the key coordinate k put back. -/
theorem lift_at (hr : S2x16x2048x2048.Reduces [3] S2x16x2048) (b : Fin 2) (h : Fin 16) (q k : Fin 2048) :
    hr.lift (ix3 b h q) k = ix4 b h q k :=
  funext fun a => Fin.ext (by match a with | ⟨0, _⟩ => rfl | ⟨1, _⟩ => rfl | ⟨2, _⟩ => rfl | ⟨3, _⟩ => rfl)

/-- The row maximum at (b, h, q): the largest masked score of the row, from the bottom element. -/
theorem top_at (Q K : (⟨S2x16x2048x64, .f32⟩ : BufTy).Contents (Elt Ideal)) (M : (⟨S2x1x2048x2048, .i1⟩ : BufTy).Contents (Elt Ideal))
    (b : Fin 2) (h : Fin 16) (q : Fin 2048) :
    val_main_v7 (F := Ideal) Q K M (ix3 b h q) = rowTop (scoreRow Q K M b h q) := by
  have hr : S2x16x2048x2048.Reduces [3] S2x16x2048 := by decide
  have hfun : (val_main_v4 (F := Ideal) Q K M ∘ hr.lift (ix3 b h q)) = scoreRow Q K M b h q :=
    funext fun (k : Fin 2048) => (congrArg (val_main_v4 (F := Ideal) Q K M) (lift_at hr b h q k)).trans (masked_at Q K M b h q k)
  rw [val_main_v7_apply, val_main_v6_apply, val_main_cst_2_apply]
  unfold val_main_v5
  rw [Cert.MaxMinFold.hostReduce_maximumf_single _ _ reducesTo_S2x16x2048x2048_S2x16x2048_d3 hr h_S_, hfun, val_main_cst_1_apply]
  simp only [Ideal.maximumf_def, Ideal.ofBits_def, Cert.BitFolds.ofBits_neg_inf_f32]
  unfold rowTop
  exact max_eq_right bot_le

/-! ## The exponentials, their row sum, the weights -/

theorem idx_v8_v9_at (b : Fin 2) (h : Fin 16) (q k : Fin 2048) :
    idx_main_v8 (idx_main_v9 (ix4 b h q k)) = ix3 b h q :=
  funext fun a => Fin.ext (by match a with | ⟨0, _⟩ => rfl | ⟨1, _⟩ => rfl | ⟨2, _⟩ => rfl)

theorem idx_v13_v14_at (b : Fin 2) (h : Fin 16) (q k : Fin 2048) :
    idx_main_v13 (idx_main_v14 (ix4 b h q k)) = ix3 b h q :=
  funext fun a => Fin.ext (by match a with | ⟨0, _⟩ => rfl | ⟨1, _⟩ => rfl | ⟨2, _⟩ => rfl)

theorem idx_v12_at (b : Fin 2) (h : Fin 16) (q k : Fin 2048) :
    idx_main_v12 (ix3 b h q) k = ix4 b h q k :=
  funext fun a => Fin.ext (by match a with | ⟨0, _⟩ => rfl | ⟨1, _⟩ => rfl | ⟨2, _⟩ => rfl | ⟨3, _⟩ => rfl)

/-- The exponential at (b, h, q, k): of the masked score less the row maximum. -/
theorem exp_at (Q K : (⟨S2x16x2048x64, .f32⟩ : BufTy).Contents (Elt Ideal)) (M : (⟨S2x1x2048x2048, .i1⟩ : BufTy).Contents (Elt Ideal))
    (b : Fin 2) (h : Fin 16) (q k : Fin 2048) :
    val_main_v11 (F := Ideal) Q K M (ix4 b h q k)
      = Ideal.exp (scoreRow Q K M b h q k - rowTop (scoreRow Q K M b h q)) := by
  rw [val_main_v11_apply, val_main_v10_apply, val_main_v9_apply, val_main_v8_apply, idx_v8_v9_at, masked_at, top_at]
  simp only [Ideal.hostUnary_exp_def, Ideal.subf_def]

/-- The row sum at (b, h, q): the sum of the row's exponentials. -/
theorem sum_at (Q K : (⟨S2x16x2048x64, .f32⟩ : BufTy).Contents (Elt Ideal)) (M : (⟨S2x1x2048x2048, .i1⟩ : BufTy).Contents (Elt Ideal))
    (b : Fin 2) (h : Fin 16) (q : Fin 2048) :
    val_main_v12 (F := Ideal) Q K M (ix3 b h q)
      = ∑ k' : Fin 2048, Ideal.exp (scoreRow Q K M b h q k' - rowTop (scoreRow Q K M b h q)) := by
  rw [val_main_v12_apply, val_main_cst_3_apply]
  simp only [Ideal.ofBits_def, Ideal.ofBits_zero_f32, zero_add]
  exact Finset.sum_congr rfl fun k' _ => by rw [idx_v12_at, exp_at]

/-- The weight at (b, h, q, k): the softmax weight of key k among the row's masked scores. -/
theorem weight_at (Q K : (⟨S2x16x2048x64, .f32⟩ : BufTy).Contents (Elt Ideal)) (M : (⟨S2x1x2048x2048, .i1⟩ : BufTy).Contents (Elt Ideal))
    (b : Fin 2) (h : Fin 16) (q k : Fin 2048) :
    val_main_v15 (F := Ideal) Q K M (ix4 b h q k) = rowWeight (scoreRow Q K M b h q) k := by
  rw [val_main_v15_apply, val_main_v14_apply, val_main_v13_apply, idx_v13_v14_at, exp_at, sum_at]
  simp only [Ideal.hostDivf_def]
  rfl

/-- THE ATTENTION WEIGHTS of the reference are the specification's. -/
theorem attn_eq (Q K : (⟨S2x16x2048x64, .f32⟩ : BufTy).Contents (Elt Ideal)) (M : (⟨S2x1x2048x2048, .i1⟩ : BufTy).Contents (Elt Ideal)) :
    val_main_v15 (F := Ideal) Q K M = Cert.Attn.attn Q K M := by
  funext i
  obtain ⟨b, h, q, k, rfl⟩ : ∃ (b : Fin 2) (h : Fin 16) (q : Fin 2048) (k : Fin 2048), i = ix4 b h q k :=
    ⟨i 0, i 1, i 2, i 3, eq_ix4 i⟩
  rw [weight_at]
  rfl

/-! ## The context -/

theorem lidx_v16_at (b : Fin 2) (h : Fin 16) (q : Fin 2048) (d : Fin 64) (k : Fin 2048) :
    lidx_main_v16 (ix4 b h q d) k = ix4 b h q k :=
  funext fun a => Fin.ext (by match a with | ⟨0, _⟩ => rfl | ⟨1, _⟩ => rfl | ⟨2, _⟩ => rfl | ⟨3, _⟩ => rfl)

theorem ridx_v16_at (b : Fin 2) (h : Fin 16) (q : Fin 2048) (d : Fin 64) (k : Fin 2048) :
    ridx_main_v16 (ix4 b h q d) k = ix4 b h k d :=
  funext fun a => Fin.ext (by match a with | ⟨0, _⟩ => rfl | ⟨1, _⟩ => rfl | ⟨2, _⟩ => rfl | ⟨3, _⟩ => rfl)

/-- THE CONTEXT of the reference is the specification's. -/
theorem ctx_eq (Q K V : (⟨S2x16x2048x64, .f32⟩ : BufTy).Contents (Elt Ideal)) (M : (⟨S2x1x2048x2048, .i1⟩ : BufTy).Contents (Elt Ideal)) :
    val_main_v16 (F := Ideal) Q K V M = Cert.Attn.ctx Q K V M := by
  funext i
  obtain ⟨b, h, q, d, rfl⟩ : ∃ (b : Fin 2) (h : Fin 16) (q : Fin 2048) (d : Fin 64), i = ix4 b h q d :=
    ⟨i 0, i 1, i 2, i 3, eq_ix4 i⟩
  rw [val_main_v16_apply]
  show _ = ∑ k : Fin 2048, attn Q K M (ix4 b h q k) * V (ix4 b h k d)
  exact Finset.sum_congr rfl fun k _ => by rw [attn_eq, lidx_v16_at, ridx_v16_at]

end Cert.RefIsSpec

end
-- ==== Proof.FiniteInputs.lean ====
import proofs.«149236_j57226144252711_2_alg».proof.Proof.Gen.Pre_finite_inputs
import Idealize.ShloMosaic.Lib.ReduceAll
import Idealize.ShloMosaic.Lib.ValueIdx

/-!
# The precondition read back: every entry of the three float arguments is a real number

The precondition is the conjunction, over the three float arguments, of "for all indices, |x| < +∞", each
"for all" being a reduction by `and` over every axis. Read at the extended reals, |x| = max x (-x) is +∞ at
both infinities, so the strict bound leaves exactly the real numbers.
-/

namespace Cert.FiniteInputs

open Idealize.ShloMosaic Cert.Pre_finite_inputs

/-- The rank-0 shape has a single index: there is no axis to disagree on. -/
instance : Subsingleton S_.Idx := ⟨fun _ _ => funext fun d => d.elim0⟩

/-- An extended real `x` with `max x (-x) < +∞` is a real number: `max ⊤ (-⊤) = ⊤` and `max ⊥ (-⊥) = max ⊥ ⊤ = ⊤`,
    so neither infinity passes the comparison; the bound is the f32 pattern of `+∞`, which denotes `⊤`. -/
theorem real_of_abs_lt_inf (x : EReal)
    (h : Ideal.cmp .olt (max x (-x)) (Ideal.ofBits .f32 0x7F800000#32) = 1#1) : ∃ r : ℝ, x = (r : EReal) := by
  induction x using EReal.rec with
  | bot => simp [Ideal.cmp, Ideal.ofBits, Ideal.ieee] at h
  | coe r => exact ⟨r, rfl⟩
  | top => simp [Ideal.cmp, Ideal.ofBits, Ideal.ieee] at h

/-- One argument: if the conjunction over all indices of `|x i| < +∞` is true, every entry of `x` is a real number.
    A conjunction that is true is true at each index, and there the comparison is the scalar one above. -/
theorem real_of_all (x : FVec Ideal S2x16x2048x64 .f32)
    (hb : S_.BroadcastsInDim S2x16x2048x64 (![] : Fin 0 → Fin S2x16x2048x64.rank))
    (hr : S2x16x2048x64.ReducesTo [0, 1, 2, 3] S_) (hu : 0 < S_.numel) (j : S_.Idx)
    (h : Host.reduce IntOp.andi
        (cmpf .olt (Host.absf x) (broadcastInDim S2x16x2048x64 ![] hb (constant S_ .f32 0x7F800000#32)))
        (constantI S_ 1 1#1) hr hu j = 1#1)
    (i : S2x16x2048x64.Idx) : ∃ r : ℝ, x i = (r : EReal) :=
  real_of_abs_lt_inf (x i) (Host.reduce_andi_all _ _ hr hu j h i)

/-- Under the precondition every entry of each of the three float arguments is a real number: the result is the
    `and` of the three per-argument conjunctions, so each of them is true. -/
theorem real_of_pre [Cert.Pre_finite_inputs.Facts]
    (x0 x1 x2 : FVec Ideal Cert.Pre_finite_inputs.S2x16x2048x64 .f32) (x3 : IVec Cert.Pre_finite_inputs.S2x1x2048x2048 1)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h' := congrFun h ValueIdx.ix0
  dsimp only [Cert.Pre_finite_inputs.fn, andi] at h'
  obtain ⟨h01, h2⟩ := IntOp.andi_eq_one.1 h'
  obtain ⟨h0, h1⟩ := IntOp.andi_eq_one.1 h01
  exact ⟨real_of_all x0 _ _ _ _ h0, real_of_all x1 _ _ _ _ h1, real_of_all x2 _ _ _ _ h2⟩

end Cert.FiniteInputs
-- ==== Proof.lean ====
/-
  Scaled dot-product attention with a fill mask, returning the context and the attention weights: the Pallas kernel
  against its jnp reference, on the extended reals.

  Both programs compute, for every batch, head and query row, the masked scores of the row — the inner products of the
  query row with the key rows over the square root of 64, replaced by a fixed small word where the mask is set —, their
  softmax weights, and the weighted sum of the value rows. The reference does it on whole arrays. The kernel does it a
  tile of 256 query rows and one head at a time, scales the queries by one eighth before the product instead of
  dividing the scores by the root, and takes each matrix product in three passes, x·y + x·(y − y) + (x − x)·y. Over
  the extended reals a format change is the identity, so the two correction passes are products with x − x, which is 0
  exactly for a real x: with finite inputs every entry met is real (the scores, and the softmax weights, which are
  quotients of positive reals), the corrections vanish, and one eighth of an inner product is the inner product over 8.

  The modules: the specification as one function of the argument arrays (AttnSpec); the reference's two results are the
  specification (RefIsSpec); one grid point's body entry by entry (BodyAt, BlockAt) and what its run leaves in the output
  blocks (Pieces); the blocks written back cover the result arrays, which therefore end as the specification (Blocks);
  the precondition makes every float input entry real (FiniteInputs). The three frames are the generated frame runs, and
  the four removed format round trips are the rule's own statement.
-/
import proofs.«149236_j57226144252711_2_alg».proof.Defs
import proofs.«149236_j57226144252711_2_alg».proof.Proof.Gen.Kernel
import proofs.«149236_j57226144252711_2_alg».proof.Proof.Gen.Kernel.Skeleton
import proofs.«149236_j57226144252711_2_alg».proof.Proof.Gen.Kernel.Launch
import proofs.«149236_j57226144252711_2_alg».proof.Proof.Gen.Kernel.Points
import proofs.«149236_j57226144252711_2_alg».proof.Proof.Gen.Kernel.Frame
import proofs.«149236_j57226144252711_2_alg».proof.Proof.Gen.KernelIdeal
import proofs.«149236_j57226144252711_2_alg».proof.Proof.Gen.KernelIdeal.Skeleton
import proofs.«149236_j57226144252711_2_alg».proof.Proof.Gen.KernelIdeal.Launch
import proofs.«149236_j57226144252711_2_alg».proof.Proof.Gen.KernelIdeal.Points
import proofs.«149236_j57226144252711_2_alg».proof.Proof.Gen.KernelIdeal.Frame
import proofs.«149236_j57226144252711_2_alg».proof.Proof.Gen.ReferenceIdeal
import proofs.«149236_j57226144252711_2_alg».proof.Proof.Gen.Pre_finite_inputs
import proofs.«149236_j57226144252711_2_alg».proof.Proof.Gen.KernelIdeal.Value
import proofs.«149236_j57226144252711_2_alg».proof.Proof.Gen.ReferenceIdeal.Run
import proofs.«149236_j57226144252711_2_alg».proof.Proof.Gen.ReferenceIdeal.Read
import proofs.«149236_j57226144252711_2_alg».proof.Proof.Blocks
import proofs.«149236_j57226144252711_2_alg».proof.Proof.RefIsSpec
import proofs.«149236_j57226144252711_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization removed four round trips f32 → bf16 → f32 (the high parts of the scaled queries, the keys, the
    weights and the values): on the extended reals each is the identity. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- From memories agreeing on the arguments, finite on the kernel's side, both programs end with the context at the
    specification's context and the weights at the specification's weights of those arguments. -/
theorem algebraic : Cert.algebraic_KernelIdeal_ReferenceIdeal := by
  intro m ρ m' ρ' hpre hagree
  have hreal := fun c => Cert.FiniteInputs.real_of_pre _ _ _ _ (hpre c)
  refine ⟨_, _, Cert.KernelIdeal.Blocks.run m ρ (fun c => (hreal c).1) (fun c => (hreal c).2.1) (fun c => (hreal c).2.2), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v16_eq, Cert.RefIsSpec.ctx_eq,
      (hagree c).1, (hagree c).2.1, (hagree c).2.2.1, (hagree c).2.2.2]
  · rw [(h c).2.1, Cert.ReferenceIdeal.Read.val_main_v15_eq, Cert.RefIsSpec.attn_eq,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
